-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x128 : Shape := ⟨2, ![100000, 128]⟩
abbrev S100000x3 : Shape := ⟨2, ![100000, 3]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S3200000x3 : S_.BroadcastsInDim S3200000x3 (![] : Fin 0 → Fin S3200000x3.rank)
  reducesTo_S3200000x3_S_d0_1 : S3200000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S128 .f32) (main_arg20 : FVec F S128x1 .f32) (main_arg21 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x1 .f32 := Host.absf main_arg20
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x3 .f32) (main_arg17 : FVec F S3 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x3 .f32 := Host.absf main_arg16
  let main_cst_28 : FVec F S_ .f32 := constant S_ .f32 0x7F800000#32
  let main_v75 : FVec F S128x3 .f32 := broadcastInDim S128x3 ![] bcast_S_S128x3 main_cst_28
  let main_v76 : IVec S128x3 1 := cmpf .olt main_v74 main_v75
  let main_c_29 : IVec S_ 1 := constantI S_ 1 1#1
  let main_v77 : IVec S_ 1 := (fun x v => Host.reduce IntOp.andi x v reducesTo_S128x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128x1 .f32) (main_arg13 : FVec F S1 .f32) (main_arg14 : FVec F S128x128 .f32) (main_arg15 : FVec F S128 .f32) (main_arg16 : FVec F S128x3 .f32) (main_arg17 : FVec F S3 .f32) (main_arg18 : FVec F S128x128 .f32) (main_arg19 : FVec F S128 .f32) (main_arg20 : FVec F S128x1 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x3 .f32) (main_arg17 : FVec F S3 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S3200000x3 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x3 .f32) (main_arg17 : FVec F S3 .f32) (main_arg18 : FVec F S128x128 .f32) (main_arg19 : FVec F S128 .f32) (main_arg20 : FVec F S128x1 .f32) (main_arg21 : FVec F S1 .f32) (main_v13 : IVec S_ 1) (main_v16 : IVec S3200000x3 1) : IVec S_ 1 :=
  let main_c_5 : IVec S_ 1 := constantI S_ 1 1#1
  let main_v17 : IVec S_ 1 := (fun x v => Host.reduce IntOp.andi x v reducesTo_S3200000x3_S_d0_1 h_S_) main_v16 main_c_5
  let main_v18 : IVec S_ 1 := andi main_v13 main_v17
  let main_v19 : FVec F S3200000x3 .f32 := Host.absf main_arg5
  let main_cst_6 : FVec F S_ .f32 := constant S_ .f32 0x7F800000#32
  let main_v20 : FVec F S3200000x3 .f32 := broadcastInDim S3200000x3 ![] bcast_S_S3200000x3 main_cst_6
  let main_v21 : IVec S3200000x3 1 := cmpf .olt main_v19 main_v20
  let main_c_7 : IVec S_ 1 := constantI S_ 1 1#1
  let main_v22 : IVec S_ 1 := (fun x v => Host.reduce IntOp.andi x v reducesTo_S3200000x3_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S2x3200000 32) (main_arg1 : FVec F S100000x128 .f32) (main_arg2 : FVec F S100000x3 .f32) (main_arg3 : FVec F S3200000x3 .f32) (main_arg4 : FVec F S3200000x3 .f32) (main_arg5 : FVec F S3200000x3 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x3 .f32) (main_arg17 : FVec F S3 .f32) (main_arg18 : FVec F S128x128 .f32) (main_arg19 : FVec F S128 .f32) (main_arg20 : FVec F S128x1 .f32) (main_arg21 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S3200000x3 .f32 := Host.absf main_arg3
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  let main_v14 : FVec F S3200000x3 .f32 := Host.absf main_arg4
  let main_cst_4 : FVec F S_ .f32 := constant S_ .f32 0x7F800000#32
  let main_v15 : FVec F S3200000x3 .f32 := broadcastInDim S3200000x3 ![] bcast_S_S3200000x3 main_cst_4
  let main_v16 : IVec S3200000x3 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2x3200000 : Shape := ⟨2, ![2, 3200000]⟩
abbrev S100000x128 : Shape := ⟨2, ![100000, 128]⟩
abbrev S100000x3 : Shape := ⟨2, ![100000, 3]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩
abbrev S1x3 : Shape := ⟨2, ![1, 3]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 59
  | .vmem => 32
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S100000x3, .f32⟩
  | .hbm, ⟨3, _⟩ => ⟨S3200000x3, .f32⟩
  | .hbm, ⟨4, _⟩ => ⟨S3200000x3, .f32⟩
  | .hbm, ⟨5, _⟩ => ⟨S3200000x3, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S128x128, .f32⟩
  | .hbm, ⟨15, _⟩ => ⟨S128, .f32⟩
  | .hbm, ⟨16, _⟩ => ⟨S128x3, .f32⟩
  | .hbm, ⟨17, _⟩ => ⟨S3, .f32⟩
  | .hbm, ⟨18, _⟩ => ⟨S128x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S1x3200000, .i32⟩
  | .hbm, ⟨23, _⟩ => ⟨S3200000, .i32⟩
  | .hbm, ⟨24, _⟩ => ⟨S_, .f32⟩
  | .hbm, ⟨25, _⟩ => ⟨S100000x3, .f32⟩
  | .hbm, ⟨26, _⟩ => ⟨S3200000x1, .i32⟩
  | .hbm, ⟨27, _⟩ => ⟨S100000x3, .f32⟩
  | .hbm, ⟨28, _⟩ => ⟨S_, .f32⟩
  | .hbm, ⟨29, _⟩ => ⟨S100000x3, .f32⟩
  | .hbm, ⟨30, _⟩ => ⟨S3200000x1, .i32⟩
  | .hbm, ⟨31, _⟩ => ⟨S100000x3, .f32⟩
  | .hbm, ⟨32, _⟩ => ⟨S_, .f32⟩
  | .hbm, ⟨33, _⟩ => ⟨S3200000, .f32⟩
  | .hbm, ⟨34, _⟩ => ⟨S_, .f32⟩
  | .hbm, ⟨35, _⟩ => ⟨S100000, .f32⟩
  | .hbm, ⟨36, _⟩ => ⟨S3200000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S_, .f32⟩
  | .hbm, ⟨43, _⟩ => ⟨S100000x3, .f32⟩
  | .hbm, ⟨44, _⟩ => ⟨S3200000x1, .i32⟩
  | .hbm, ⟨45, _⟩ => ⟨S100000x3, .f32⟩
  | .hbm, ⟨46, _⟩ => ⟨S100000x3, .f32⟩
  | .hbm, ⟨47, _⟩ => ⟨S100000x3, .f32⟩
  | .hbm, ⟨48, _⟩ => ⟨S1x128, .f32⟩
  | .hbm, ⟨49, _⟩ => ⟨S1x1, .f32⟩
  | .hbm, ⟨50, _⟩ => ⟨S1x128, .f32⟩
  | .hbm, ⟨51, _⟩ => ⟨S1x1, .f32⟩
  | .hbm, ⟨52, _⟩ => ⟨S1x128, .f32⟩
  | .hbm, ⟨53, _⟩ => ⟨S1x3, .f32⟩
  | .hbm, ⟨54, _⟩ => ⟨S1x128, .f32⟩
  | .hbm, ⟨55, _⟩ => ⟨S1x1, .f32⟩
  | .hbm, ⟨56, _⟩ => ⟨S100000x3, .f32⟩
  | .hbm, ⟨57, _⟩ => ⟨S100000x3, .f32⟩
  | .hbm, ⟨58, _⟩ => ⟨S100000x3, .f32⟩
  | .local _ .vmem, ⟨0, _⟩ => ⟨S2000x128, .f32⟩
  | .local _ .vmem, ⟨1, _⟩ => ⟨S2000x128, .f32⟩
  | .local _ .vmem, ⟨2, _⟩ => ⟨S2000x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S2000x3, .f32⟩
  | .local _ .vmem, ⟨8, _⟩ => ⟨S2000x3, .f32⟩
  | .local _ .vmem, ⟨9, _⟩ => ⟨S2000x3, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S128x128, .f32⟩
  | .local _ .vmem, ⟨19, _⟩ => ⟨S1x128, .f32⟩
  | .local _ .vmem, ⟨20, _⟩ => ⟨S128x3, .f32⟩
  | .local _ .vmem, ⟨21, _⟩ => ⟨S1x3, .f32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S2000x3, .f32⟩
  | .local _ .vmem, ⟨27, _⟩ => ⟨S2000x3, .f32⟩
  | .local _ .vmem, ⟨28, _⟩ => ⟨S2000x3, .f32⟩
  | .local _ .vmem, ⟨29, _⟩ => ⟨S2000x3, .f32⟩
  | .local _ .vmem, ⟨30, _⟩ => ⟨S2000x3, .f32⟩
  | .local _ .vmem, ⟨31, _⟩ => ⟨S2000x3, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v28_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2000x3 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2000x3 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2000x3 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S2x3200000_S1x3200000_1_0 : S2x3200000.Slices ![1, 0] S1x3200000
  shapeCasts_S1x3200000_S3200000 : S1x3200000.ShapeCasts S3200000
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  shapeCasts_S128_S1x128 : S128.ShapeCasts S1x128
  shapeCasts_S1_S1x1 : S1.ShapeCasts S1x1
  shapeCasts_S3_S1x3 : S3.ShapeCasts S1x3
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  broadcasts_S2000x1_S2000x3 : S2000x1.Broadcasts S2000x3
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S100000x3.size a
  hwx0_3 : ∀ i : grid0.Coords, EltTy.bits .f32 = 32 ∨ (Rect.block (s := S100000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S100000x3.size a
  hwx0_4 : ∀ i : grid0.Coords, EltTy.bits .f32 = 32 ∨ (Rect.block (s := S100000x3) S2000x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x3.size a ≤ S128x3.size a
  hwx0_15 : ∀ i : grid0.Coords, EltTy.bits .f32 = 32 ∨ (Rect.block (s := S128x3) S128x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x3.size a ≤ S1x3.size a
  hwx0_16 : ∀ i : grid0.Coords, EltTy.bits .f32 = 32 ∨ (Rect.block (s := S1x3) S1x3.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x1.size a ≤ S128x1.size a
  hwx0_19 : ∀ i : grid0.Coords, EltTy.bits .f32 = 32 ∨ (Rect.block (s := S128x1) S128x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2000x3.size a ≤ S100000x3.size a
  hwx0_21 : ∀ i : grid0.Coords, EltTy.bits .f32 = 32 ∨ (Rect.block (s := S100000x3) S2000x3.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2000x3.size a ≤ S100000x3.size a
  hwx0_22 : ∀ i : grid0.Coords, EltTy.bits .f32 = 32 ∨ (Rect.block (s := S100000x3) S2000x3.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x3.size a ≤ S100000x3.size a
  hwx0_23 : ∀ i : grid0.Coords, EltTy.bits .f32 = 32 ∨ (Rect.block (s := S100000x3) S2000x3.size (cc0_transform_23 i) (hinb0_23 i)).WholeWords (EltTy.packing .f32)

variable [Facts₀]

def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S128x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v25) S1x3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg20) S128x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v27) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v28_0) S2000x3.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v28_1) S2000x3.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v28_2) S2000x3.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S2x3200000 : Shape := ⟨2, ![2, 3200000]⟩
abbrev S100000x128 : Shape := ⟨2, ![100000, 128]⟩
abbrev S100000x3 : Shape := ⟨2, ![100000, 3]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S1x3200000 : Shape := ⟨2, ![1, 3200000]⟩
abbrev S3200000 : Shape := ⟨1, ![3200000]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S3200000x1 : Shape := ⟨2, ![3200000, 1]⟩
abbrev S100000 : Shape := ⟨1, ![100000]⟩
abbrev S1x3 : Shape := ⟨2, ![1, 3]⟩

abbrev nBuf : Space → Nat
  | .hbm => 100
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S100000x3, .f32⟩
  | .hbm, ⟨3, _⟩ => ⟨S3200000x3, .f32⟩
  | .hbm, ⟨4, _⟩ => ⟨S3200000x3, .f32⟩
  | .hbm, ⟨5, _⟩ => ⟨S3200000x3, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S128x128, .f32⟩
  | .hbm, ⟨15, _⟩ => ⟨S128, .f32⟩
  | .hbm, ⟨16, _⟩ => ⟨S128x3, .f32⟩
  | .hbm, ⟨17, _⟩ => ⟨S3, .f32⟩
  | .hbm, ⟨18, _⟩ => ⟨S128x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S1x3200000, .i32⟩
  | .hbm, ⟨23, _⟩ => ⟨S3200000, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x1, .f32⟩
  | .hbm, ⟨32, _⟩ => ⟨S1x1, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x1, .f32⟩
  | .hbm, ⟨43, _⟩ => ⟨S1x1, .f32⟩
  | .hbm, ⟨44, _⟩ => ⟨S100000x1, .f32⟩
  | .hbm, ⟨45, _⟩ => ⟨S100000x1, .f32⟩
  | .hbm, ⟨46, _⟩ => ⟨S_, .f32⟩
  | .hbm, ⟨47, _⟩ => ⟨S100000x3, .f32⟩
  | .hbm, ⟨48, _⟩ => ⟨S3200000x1, .i32⟩
  | .hbm, ⟨49, _⟩ => ⟨S100000x3, .f32⟩
  | .hbm, ⟨50, _⟩ => ⟨S_, .f32⟩
  | .hbm, ⟨51, _⟩ => ⟨S100000x3, .f32⟩
  | .hbm, ⟨52, _⟩ => ⟨S3200000x1, .i32⟩
  | .hbm, ⟨53, _⟩ => ⟨S100000x3, .f32⟩
  | .hbm, ⟨54, _⟩ => ⟨S_, .f32⟩
  | .hbm, ⟨55, _⟩ => ⟨S3200000, .f32⟩
  | .hbm, ⟨56, _⟩ => ⟨S_, .f32⟩
  | .hbm, ⟨57, _⟩ => ⟨S100000, .f32⟩
  | .hbm, ⟨58, _⟩ => ⟨S3200000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S_, .f32⟩
  | .hbm, ⟨65, _⟩ => ⟨S100000x3, .f32⟩
  | .hbm, ⟨66, _⟩ => ⟨S3200000x1, .i32⟩
  | .hbm, ⟨67, _⟩ => ⟨S100000x3, .f32⟩
  | .hbm, ⟨68, _⟩ => ⟨S100000x3, .f32⟩
  | .hbm, ⟨69, _⟩ => ⟨S100000x3, .f32⟩
  | .hbm, ⟨70, _⟩ => ⟨S100000x3, .f32⟩
  | .hbm, ⟨71, _⟩ => ⟨S100000x3, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x3, .f32⟩
  | .hbm, ⟨80, _⟩ => ⟨S1x3, .f32⟩
  | .hbm, ⟨81, _⟩ => ⟨S100000x3, .f32⟩
  | .hbm, ⟨82, _⟩ => ⟨S100000x3, .f32⟩
  | .hbm, ⟨83, _⟩ => ⟨S100000x3, .f32⟩
  | .hbm, ⟨84, _⟩ => ⟨S100000x3, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | .hbm, ⟨96, _⟩ => ⟨S100000x3, .f32⟩
  | .hbm, ⟨97, _⟩ => ⟨S100000x3, .f32⟩
  | .hbm, ⟨98, _⟩ => ⟨S100000x3, .f32⟩
  | .hbm, ⟨99, _⟩ => ⟨S100000x3, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call0_cst : Ref sig .tc := ⟨.hbm, 28, rfl⟩
abbrev main_call0_v0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call1_cst : Ref sig .tc := ⟨.hbm, 39, rfl⟩
abbrev main_call1_v0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call2_cst : Ref sig .tc := ⟨.hbm, 76, rfl⟩
abbrev main_call2_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call3_cst : Ref sig .tc := ⟨.hbm, 89, rfl⟩
abbrev main_call3_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]

class Facts₀ : Prop where
  slices_S2x3200000_S1x3200000_1_0 : S2x3200000.Slices ![1, 0] S1x3200000
  shapeCasts_S1x3200000_S3200000 : S1x3200000.ShapeCasts S3200000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1
  dot_S100000x128_S128x3_S100000x3_1_0_0_1_n_n_wf : DotDims.WF S100000x128 S128x3 S100000x3 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«116183_j82429012345238_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.KernelTiles.lean ====
/-
  How the grid cuts the arrays.

  The grid has 50 points; point t works on nodes 2000·t … 2000·t + 1999: the latent rows, the current velocity, the three
  edge sums and the three results are cut into blocks of 2000 rows, block t at point t, while every weight matrix and
  bias row is one block read whole at every point. So row r of a tiled block at point t is row 2000·t + r of its array,
  a whole block is its array, and the 50 result blocks tile the 100000 rows.
-/
import proofs.«116183_j82429012345238_2_alg».proof.Proof.Gen.KernelIdeal.Frame
import Idealize.ShloMosaic.Lib.Pipeline.Value
import Idealize.ShloMosaic.Lib.ValueIdx
import proofs.«116183_j82429012345238_2_alg».proof.Proof.LibRowRead

noncomputable section

namespace Cert.KernelIdeal.Tiles

open Cert.KernelIdeal Cert.KernelIdeal.Gen Idealize.ShloMosaic Idealize.ShloMosaic.TcCoe Idealize.SL.Sem
open Idealize.ShloMosaic.ValueIdx RowRead
open Idealize.ShloMosaic.Pipeline (Dat)

variable (m : (ℓ : Loc nD τ sig) → Buf (Elt Ideal) ℓ) (ρ : Dev nD → PrngReg)

/-! ## Where each window's block sits -/

/-- Window 0's block at point t is block (t, 0) of its array. -/
theorem at_0 : ∀ t : Fin cfg0.N, win0_0.index t (0 : Fin 2) = t.val ∧ win0_0.index t (1 : Fin 2) = 0 :=
  (by decide +kernel : ∀ t : Fin grid0.N, _)
/-- Window 1's block at point t is block (t, 0) of its array. -/
theorem at_1 : ∀ t : Fin cfg0.N, win0_1.index t (0 : Fin 2) = t.val ∧ win0_1.index t (1 : Fin 2) = 0 :=
  (by decide +kernel : ∀ t : Fin grid0.N, _)
/-- Window 2's block at point t is block (t, 0) of its array. -/
theorem at_2 : ∀ t : Fin cfg0.N, win0_2.index t (0 : Fin 2) = t.val ∧ win0_2.index t (1 : Fin 2) = 0 :=
  (by decide +kernel : ∀ t : Fin grid0.N, _)
/-- Window 3's block at point t is block (t, 0) of its array. -/
theorem at_3 : ∀ t : Fin cfg0.N, win0_3.index t (0 : Fin 2) = t.val ∧ win0_3.index t (1 : Fin 2) = 0 :=
  (by decide +kernel : ∀ t : Fin grid0.N, _)
/-- Window 4's block at point t is block (t, 0) of its array. -/
theorem at_4 : ∀ t : Fin cfg0.N, win0_4.index t (0 : Fin 2) = t.val ∧ win0_4.index t (1 : Fin 2) = 0 :=
  (by decide +kernel : ∀ t : Fin grid0.N, _)
/-- Window 5's block is its whole array at every point. -/
theorem at_5 : ∀ t : Fin cfg0.N, win0_5.index t (0 : Fin 2) = 0 ∧ win0_5.index t (1 : Fin 2) = 0 :=
  (by decide +kernel : ∀ t : Fin grid0.N, _)
/-- Window 6's block is its whole array at every point. -/
theorem at_6 : ∀ t : Fin cfg0.N, win0_6.index t (0 : Fin 2) = 0 ∧ win0_6.index t (1 : Fin 2) = 0 :=
  (by decide +kernel : ∀ t : Fin grid0.N, _)
/-- Window 7's block is its whole array at every point. -/
theorem at_7 : ∀ t : Fin cfg0.N, win0_7.index t (0 : Fin 2) = 0 ∧ win0_7.index t (1 : Fin 2) = 0 :=
  (by decide +kernel : ∀ t : Fin grid0.N, _)
/-- Window 8's block is its whole array at every point. -/
theorem at_8 : ∀ t : Fin cfg0.N, win0_8.index t (0 : Fin 2) = 0 ∧ win0_8.index t (1 : Fin 2) = 0 :=
  (by decide +kernel : ∀ t : Fin grid0.N, _)
/-- Window 9's block is its whole array at every point. -/
theorem at_9 : ∀ t : Fin cfg0.N, win0_9.index t (0 : Fin 2) = 0 ∧ win0_9.index t (1 : Fin 2) = 0 :=
  (by decide +kernel : ∀ t : Fin grid0.N, _)
/-- Window 10's block is its whole array at every point. -/
theorem at_10 : ∀ t : Fin cfg0.N, win0_10.index t (0 : Fin 2) = 0 ∧ win0_10.index t (1 : Fin 2) = 0 :=
  (by decide +kernel : ∀ t : Fin grid0.N, _)
/-- Window 11's block is its whole array at every point. -/
theorem at_11 : ∀ t : Fin cfg0.N, win0_11.index t (0 : Fin 2) = 0 ∧ win0_11.index t (1 : Fin 2) = 0 :=
  (by decide +kernel : ∀ t : Fin grid0.N, _)
/-- Window 12's block is its whole array at every point. -/
theorem at_12 : ∀ t : Fin cfg0.N, win0_12.index t (0 : Fin 2) = 0 ∧ win0_12.index t (1 : Fin 2) = 0 :=
  (by decide +kernel : ∀ t : Fin grid0.N, _)
/-- Window 13's block is its whole array at every point. -/
theorem at_13 : ∀ t : Fin cfg0.N, win0_13.index t (0 : Fin 2) = 0 ∧ win0_13.index t (1 : Fin 2) = 0 :=
  (by decide +kernel : ∀ t : Fin grid0.N, _)
/-- Window 14's block is its whole array at every point. -/
theorem at_14 : ∀ t : Fin cfg0.N, win0_14.index t (0 : Fin 2) = 0 ∧ win0_14.index t (1 : Fin 2) = 0 :=
  (by decide +kernel : ∀ t : Fin grid0.N, _)
/-- Window 15's block is its whole array at every point. -/
theorem at_15 : ∀ t : Fin cfg0.N, win0_15.index t (0 : Fin 2) = 0 ∧ win0_15.index t (1 : Fin 2) = 0 :=
  (by decide +kernel : ∀ t : Fin grid0.N, _)
/-- Window 16's block is its whole array at every point. -/
theorem at_16 : ∀ t : Fin cfg0.N, win0_16.index t (0 : Fin 2) = 0 ∧ win0_16.index t (1 : Fin 2) = 0 :=
  (by decide +kernel : ∀ t : Fin grid0.N, _)
/-- Window 17's block is its whole array at every point. -/
theorem at_17 : ∀ t : Fin cfg0.N, win0_17.index t (0 : Fin 2) = 0 ∧ win0_17.index t (1 : Fin 2) = 0 :=
  (by decide +kernel : ∀ t : Fin grid0.N, _)
/-- Window 18's block is its whole array at every point. -/
theorem at_18 : ∀ t : Fin cfg0.N, win0_18.index t (0 : Fin 2) = 0 ∧ win0_18.index t (1 : Fin 2) = 0 :=
  (by decide +kernel : ∀ t : Fin grid0.N, _)
/-- Window 19's block is its whole array at every point. -/
theorem at_19 : ∀ t : Fin cfg0.N, win0_19.index t (0 : Fin 2) = 0 ∧ win0_19.index t (1 : Fin 2) = 0 :=
  (by decide +kernel : ∀ t : Fin grid0.N, _)
/-- Window 20's block is its whole array at every point. -/
theorem at_20 : ∀ t : Fin cfg0.N, win0_20.index t (0 : Fin 2) = 0 ∧ win0_20.index t (1 : Fin 2) = 0 :=
  (by decide +kernel : ∀ t : Fin grid0.N, _)
/-- Window 21's block at point t is block (t, 0) of its array. -/
theorem at_21 : ∀ t : Fin cfg0.N, win0_21.index t (0 : Fin 2) = t.val ∧ win0_21.index t (1 : Fin 2) = 0 :=
  (by decide +kernel : ∀ t : Fin grid0.N, _)
/-- Window 22's block at point t is block (t, 0) of its array. -/
theorem at_22 : ∀ t : Fin cfg0.N, win0_22.index t (0 : Fin 2) = t.val ∧ win0_22.index t (1 : Fin 2) = 0 :=
  (by decide +kernel : ∀ t : Fin grid0.N, _)
/-- Window 23's block at point t is block (t, 0) of its array. -/
theorem at_23 : ∀ t : Fin cfg0.N, win0_23.index t (0 : Fin 2) = t.val ∧ win0_23.index t (1 : Fin 2) = 0 :=
  (by decide +kernel : ∀ t : Fin grid0.N, _)

/-- Row r of the block at point t is node 2000·t + r. -/
def node (t : Fin cfg0.N) (r : Fin 2000) : Fin 100000 :=
  ⟨t.val * 2000 + r.val, by
    have ht : t.val < 50 := lt_of_lt_of_eq t.isLt N_0
    have hr := r.isLt
    omega⟩

/-! ## A block read off ANY contents of its array

Stated for arbitrary contents `A` of the window's array, so that only indices are compared. -/

/-- Entry (r, k) of window 0's block at point t is entry (2000·t + r, k) of the array. -/
theorem read_0 (A : S100000x128.Idx → EReal) (t : Fin cfg0.N) (r : Fin 2000) (k : Fin 128) :
    ((cfg0.win 0).blk t).view.read (Elt Ideal) A (ix2 r k) = A (ix2 (node t r) k) := by
  show A (((cfg0.win 0).blk t).view.emb (ix2 r k)) = A (ix2 (node t r) k)
  refine congrArg A ?_
  funext a; apply Fin.ext
  obtain ⟨e0, e1⟩ := at_0 t
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- Entry (r, k) of window 1's block at point t is entry (2000·t + r, k) of the array. -/
theorem read_1 (A : S100000x3.Idx → EReal) (t : Fin cfg0.N) (r : Fin 2000) (k : Fin 3) :
    ((cfg0.win 1).blk t).view.read (Elt Ideal) A (ix2 r k) = A (ix2 (node t r) k) := by
  show A (((cfg0.win 1).blk t).view.emb (ix2 r k)) = A (ix2 (node t r) k)
  refine congrArg A ?_
  funext a; apply Fin.ext
  obtain ⟨e0, e1⟩ := at_1 t
  match a with
  | ⟨0, _⟩ => show win0_1.index t (0 : Fin 2) * 2000 + 1 * r.val = t.val * 2000 + r.val; rw [e0]; omega
  | ⟨1, _⟩ => show win0_1.index t (1 : Fin 2) * 3 + 1 * k.val = k.val; rw [e1]; omega

/-- Entry (r, k) of window 2's block at point t is entry (2000·t + r, k) of the array. -/
theorem read_2 (A : S100000x3.Idx → EReal) (t : Fin cfg0.N) (r : Fin 2000) (k : Fin 3) :
    ((cfg0.win 2).blk t).view.read (Elt Ideal) A (ix2 r k) = A (ix2 (node t r) k) := by
  show A (((cfg0.win 2).blk t).view.emb (ix2 r k)) = A (ix2 (node t r) k)
  refine congrArg A ?_
  funext a; apply Fin.ext
  obtain ⟨e0, e1⟩ := at_2 t
  match a with
  | ⟨0, _⟩ => show win0_2.index t (0 : Fin 2) * 2000 + 1 * r.val = t.val * 2000 + r.val; rw [e0]; omega
  | ⟨1, _⟩ => show win0_2.index t (1 : Fin 2) * 3 + 1 * k.val = k.val; rw [e1]; omega

/-- Entry (r, k) of window 3's block at point t is entry (2000·t + r, k) of the array. -/
theorem read_3 (A : S100000x3.Idx → EReal) (t : Fin cfg0.N) (r : Fin 2000) (k : Fin 3) :
    ((cfg0.win 3).blk t).view.read (Elt Ideal) A (ix2 r k) = A (ix2 (node t r) k) := by
  show A (((cfg0.win 3).blk t).view.emb (ix2 r k)) = A (ix2 (node t r) k)
  refine congrArg A ?_
  funext a; apply Fin.ext
  obtain ⟨e0, e1⟩ := at_3 t
  match a with
  | ⟨0, _⟩ => show win0_3.index t (0 : Fin 2) * 2000 + 1 * r.val = t.val * 2000 + r.val; rw [e0]; omega
  | ⟨1, _⟩ => show win0_3.index t (1 : Fin 2) * 3 + 1 * k.val = k.val; rw [e1]; omega

/-- Entry (r, k) of window 4's block at point t is entry (2000·t + r, k) of the array. -/
theorem read_4 (A : S100000x3.Idx → EReal) (t : Fin cfg0.N) (r : Fin 2000) (k : Fin 3) :
    ((cfg0.win 4).blk t).view.read (Elt Ideal) A (ix2 r k) = A (ix2 (node t r) k) := by
  show A (((cfg0.win 4).blk t).view.emb (ix2 r k)) = A (ix2 (node t r) k)
  refine congrArg A ?_
  funext a; apply Fin.ext
  obtain ⟨e0, e1⟩ := at_4 t
  match a with
  | ⟨0, _⟩ => show win0_4.index t (0 : Fin 2) * 2000 + 1 * r.val = t.val * 2000 + r.val; rw [e0]; omega
  | ⟨1, _⟩ => show win0_4.index t (1 : Fin 2) * 3 + 1 * k.val = k.val; rw [e1]; omega

/-- Entry (r, k) of window 21's block at point t is entry (2000·t + r, k) of the array. -/
theorem read_21 (A : S100000x3.Idx → EReal) (t : Fin cfg0.N) (r : Fin 2000) (k : Fin 3) :
    ((cfg0.win 21).blk t).view.read (Elt Ideal) A (ix2 r k) = A (ix2 (node t r) k) := by
  show A (((cfg0.win 21).blk t).view.emb (ix2 r k)) = A (ix2 (node t r) k)
  refine congrArg A ?_
  funext a; apply Fin.ext
  obtain ⟨e0, e1⟩ := at_21 t
  match a with
  | ⟨0, _⟩ => show win0_21.index t (0 : Fin 2) * 2000 + 1 * r.val = t.val * 2000 + r.val; rw [e0]; omega
  | ⟨1, _⟩ => show win0_21.index t (1 : Fin 2) * 3 + 1 * k.val = k.val; rw [e1]; omega

/-- Entry (r, k) of window 22's block at point t is entry (2000·t + r, k) of the array. -/
theorem read_22 (A : S100000x3.Idx → EReal) (t : Fin cfg0.N) (r : Fin 2000) (k : Fin 3) :
    ((cfg0.win 22).blk t).view.read (Elt Ideal) A (ix2 r k) = A (ix2 (node t r) k) := by
  show A (((cfg0.win 22).blk t).view.emb (ix2 r k)) = A (ix2 (node t r) k)
  refine congrArg A ?_
  funext a; apply Fin.ext
  obtain ⟨e0, e1⟩ := at_22 t
  match a with
  | ⟨0, _⟩ => show win0_22.index t (0 : Fin 2) * 2000 + 1 * r.val = t.val * 2000 + r.val; rw [e0]; omega
  | ⟨1, _⟩ => show win0_22.index t (1 : Fin 2) * 3 + 1 * k.val = k.val; rw [e1]; omega

/-- Entry (r, k) of window 23's block at point t is entry (2000·t + r, k) of the array. -/
theorem read_23 (A : S100000x3.Idx → EReal) (t : Fin cfg0.N) (r : Fin 2000) (k : Fin 3) :
    ((cfg0.win 23).blk t).view.read (Elt Ideal) A (ix2 r k) = A (ix2 (node t r) k) := by
  show A (((cfg0.win 23).blk t).view.emb (ix2 r k)) = A (ix2 (node t r) k)
  refine congrArg A ?_
  funext a; apply Fin.ext
  obtain ⟨e0, e1⟩ := at_23 t
  match a with
  | ⟨0, _⟩ => show win0_23.index t (0 : Fin 2) * 2000 + 1 * r.val = t.val * 2000 + r.val; rw [e0]; omega
  | ⟨1, _⟩ => show win0_23.index t (1 : Fin 2) * 3 + 1 * k.val = k.val; rw [e1]; omega

/-- Window 5's block is the whole array. -/
theorem read_5 (A : S128x128.Idx → EReal) (t : Fin cfg0.N) : ((cfg0.win 5).blk t).view.read (Elt Ideal) A = A := by
  funext y
  show A (((cfg0.win 5).blk t).view.emb y) = A y
  refine congrArg A ?_
  funext a; apply Fin.ext
  obtain ⟨e0, e1⟩ := at_5 t
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6's block is the whole array. -/
theorem read_6 (A : S1x128.Idx → EReal) (t : Fin cfg0.N) : ((cfg0.win 6).blk t).view.read (Elt Ideal) A = A := by
  funext y
  show A (((cfg0.win 6).blk t).view.emb y) = A y
  refine congrArg A ?_
  funext a; apply Fin.ext
  obtain ⟨e0, e1⟩ := at_6 t
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block is the whole array. -/
theorem read_7 (A : S128x1.Idx → EReal) (t : Fin cfg0.N) : ((cfg0.win 7).blk t).view.read (Elt Ideal) A = A := by
  funext y
  show A (((cfg0.win 7).blk t).view.emb y) = A y
  refine congrArg A ?_
  funext a; apply Fin.ext
  obtain ⟨e0, e1⟩ := at_7 t
  match a with
  | ⟨0, _⟩ => show win0_7.index t (0 : Fin 2) * 128 + 1 * (y 0).val = (y 0).val; rw [e0]; omega
  | ⟨1, _⟩ => show win0_7.index t (1 : Fin 2) * 1 + 1 * (y 1).val = (y 1).val; rw [e1]; omega

/-- Window 8's block is the whole array. -/
theorem read_8 (A : S1x1.Idx → EReal) (t : Fin cfg0.N) : ((cfg0.win 8).blk t).view.read (Elt Ideal) A = A := by
  funext y
  show A (((cfg0.win 8).blk t).view.emb y) = A y
  refine congrArg A ?_
  funext a; apply Fin.ext
  obtain ⟨e0, e1⟩ := at_8 t
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

/-- Window 9's block is the whole array. -/
theorem read_9 (A : S128x128.Idx → EReal) (t : Fin cfg0.N) : ((cfg0.win 9).blk t).view.read (Elt Ideal) A = A := by
  funext y
  show A (((cfg0.win 9).blk t).view.emb y) = A y
  refine congrArg A ?_
  funext a; apply Fin.ext
  obtain ⟨e0, e1⟩ := at_9 t
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10's block is the whole array. -/
theorem read_10 (A : S1x128.Idx → EReal) (t : Fin cfg0.N) : ((cfg0.win 10).blk t).view.read (Elt Ideal) A = A := by
  funext y
  show A (((cfg0.win 10).blk t).view.emb y) = A y
  refine congrArg A ?_
  funext a; apply Fin.ext
  obtain ⟨e0, e1⟩ := at_10 t
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11's block is the whole array. -/
theorem read_11 (A : S128x1.Idx → EReal) (t : Fin cfg0.N) : ((cfg0.win 11).blk t).view.read (Elt Ideal) A = A := by
  funext y
  show A (((cfg0.win 11).blk t).view.emb y) = A y
  refine congrArg A ?_
  funext a; apply Fin.ext
  obtain ⟨e0, e1⟩ := at_11 t
  match a with
  | ⟨0, _⟩ => show win0_11.index t (0 : Fin 2) * 128 + 1 * (y 0).val = (y 0).val; rw [e0]; omega
  | ⟨1, _⟩ => show win0_11.index t (1 : Fin 2) * 1 + 1 * (y 1).val = (y 1).val; rw [e1]; omega

/-- Window 12's block is the whole array. -/
theorem read_12 (A : S1x1.Idx → EReal) (t : Fin cfg0.N) : ((cfg0.win 12).blk t).view.read (Elt Ideal) A = A := by
  funext y
  show A (((cfg0.win 12).blk t).view.emb y) = A y
  refine congrArg A ?_
  funext a; apply Fin.ext
  obtain ⟨e0, e1⟩ := at_12 t
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

/-- Window 13's block is the whole array. -/
theorem read_13 (A : S128x128.Idx → EReal) (t : Fin cfg0.N) : ((cfg0.win 13).blk t).view.read (Elt Ideal) A = A := by
  funext y
  show A (((cfg0.win 13).blk t).view.emb y) = A y
  refine congrArg A ?_
  funext a; apply Fin.ext
  obtain ⟨e0, e1⟩ := at_13 t
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega

/-- Window 14's block is the whole array. -/
theorem read_14 (A : S1x128.Idx → EReal) (t : Fin cfg0.N) : ((cfg0.win 14).blk t).view.read (Elt Ideal) A = A := by
  funext y
  show A (((cfg0.win 14).blk t).view.emb y) = A y
  refine congrArg A ?_
  funext a; apply Fin.ext
  obtain ⟨e0, e1⟩ := at_14 t
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

/-- Window 15's block is the whole array. -/
theorem read_15 (A : S128x3.Idx → EReal) (t : Fin cfg0.N) : ((cfg0.win 15).blk t).view.read (Elt Ideal) A = A := by
  funext y
  show A (((cfg0.win 15).blk t).view.emb y) = A y
  refine congrArg A ?_
  funext a; apply Fin.ext
  obtain ⟨e0, e1⟩ := at_15 t
  match a with
  | ⟨0, _⟩ => show win0_15.index t (0 : Fin 2) * 128 + 1 * (y 0).val = (y 0).val; rw [e0]; omega
  | ⟨1, _⟩ => show win0_15.index t (1 : Fin 2) * 3 + 1 * (y 1).val = (y 1).val; rw [e1]; omega

/-- Window 16's block is the whole array. -/
theorem read_16 (A : S1x3.Idx → EReal) (t : Fin cfg0.N) : ((cfg0.win 16).blk t).view.read (Elt Ideal) A = A := by
  funext y
  show A (((cfg0.win 16).blk t).view.emb y) = A y
  refine congrArg A ?_
  funext a; apply Fin.ext
  obtain ⟨e0, e1⟩ := at_16 t
  match a with
  | ⟨0, _⟩ => show win0_16.index t (0 : Fin 2) * 1 + 1 * (y 0).val = (y 0).val; rw [e0]; omega
  | ⟨1, _⟩ => show win0_16.index t (1 : Fin 2) * 3 + 1 * (y 1).val = (y 1).val; rw [e1]; omega

/-- Window 17's block is the whole array. -/
theorem read_17 (A : S128x128.Idx → EReal) (t : Fin cfg0.N) : ((cfg0.win 17).blk t).view.read (Elt Ideal) A = A := by
  funext y
  show A (((cfg0.win 17).blk t).view.emb y) = A y
  refine congrArg A ?_
  funext a; apply Fin.ext
  obtain ⟨e0, e1⟩ := at_17 t
  match a with
  | ⟨0, _⟩ => show win0_17.index t (0 : Fin 2) * 128 + 1 * (y 0).val = (y 0).val; rw [e0]; omega
  | ⟨1, _⟩ => show win0_17.index t (1 : Fin 2) * 128 + 1 * (y 1).val = (y 1).val; rw [e1]; omega

/-- Window 18's block is the whole array. -/
theorem read_18 (A : S1x128.Idx → EReal) (t : Fin cfg0.N) : ((cfg0.win 18).blk t).view.read (Elt Ideal) A = A := by
  funext y
  show A (((cfg0.win 18).blk t).view.emb y) = A y
  refine congrArg A ?_
  funext a; apply Fin.ext
  obtain ⟨e0, e1⟩ := at_18 t
  match a with
  | ⟨0, _⟩ => show win0_18.index t (0 : Fin 2) * 1 + 1 * (y 0).val = (y 0).val; rw [e0]; omega
  | ⟨1, _⟩ => show win0_18.index t (1 : Fin 2) * 128 + 1 * (y 1).val = (y 1).val; rw [e1]; omega

/-- Window 19's block is the whole array. -/
theorem read_19 (A : S128x1.Idx → EReal) (t : Fin cfg0.N) : ((cfg0.win 19).blk t).view.read (Elt Ideal) A = A := by
  funext y
  show A (((cfg0.win 19).blk t).view.emb y) = A y
  refine congrArg A ?_
  funext a; apply Fin.ext
  obtain ⟨e0, e1⟩ := at_19 t
  match a with
  | ⟨0, _⟩ => show win0_19.index t (0 : Fin 2) * 128 + 1 * (y 0).val = (y 0).val; rw [e0]; omega
  | ⟨1, _⟩ => show win0_19.index t (1 : Fin 2) * 1 + 1 * (y 1).val = (y 1).val; rw [e1]; omega

/-- Window 20's block is the whole array. -/
theorem read_20 (A : S1x1.Idx → EReal) (t : Fin cfg0.N) : ((cfg0.win 20).blk t).view.read (Elt Ideal) A = A := by
  funext y
  show A (((cfg0.win 20).blk t).view.emb y) = A y
  refine congrArg A ?_
  funext a; apply Fin.ext
  obtain ⟨e0, e1⟩ := at_20 t
  match a with
  | ⟨0, _⟩ => show win0_20.index t (0 : Fin 2) * 1 + 1 * (y 0).val = (y 0).val; rw [e0]; omega
  | ⟨1, _⟩ => show win0_20.index t (1 : Fin 2) * 1 + 1 * (y 1).val = (y 1).val; rw [e1]; omega

/-! ## The input blocks as rows of the arrays the region found -/

/-- Row r of the latent block at point t is the latent row of node 2000·t + r. -/
theorem latent_rows (c : Dev nD) (t : Fin cfg0.N) (r : Fin 2000) :
    rowOf (iblk m c 0 t : Vec Ideal S2000x128 .f32) r = rowOf (V m c main_arg1 : S100000x128.Idx → EReal) (node t r) :=
  funext fun k => read_0 (V m c main_arg1) t r k

/-- Entry (r, e) of window 1's block at point t is entry (2000·t + r, e) of its array. -/
theorem block_1 (c : Dev nD) (t : Fin cfg0.N) (r : Fin 2000) (e : Fin 3) :
    (iblk m c 1 t : Vec Ideal S2000x3 .f32) (ix2 r e) = (V m c main_arg2 : S100000x3.Idx → EReal) (ix2 (node t r) e) :=
  read_1 (V m c main_arg2) t r e

/-- Entry (r, e) of window 2's block at point t is entry (2000·t + r, e) of its array. -/
theorem block_2 (c : Dev nD) (t : Fin cfg0.N) (r : Fin 2000) (e : Fin 3) :
    (iblk m c 2 t : Vec Ideal S2000x3 .f32) (ix2 r e) = (V m c main_v4 : S100000x3.Idx → EReal) (ix2 (node t r) e) :=
  read_2 (V m c main_v4) t r e

/-- Entry (r, e) of window 3's block at point t is entry (2000·t + r, e) of its array. -/
theorem block_3 (c : Dev nD) (t : Fin cfg0.N) (r : Fin 2000) (e : Fin 3) :
    (iblk m c 3 t : Vec Ideal S2000x3 .f32) (ix2 r e) = (V m c main_v7 : S100000x3.Idx → EReal) (ix2 (node t r) e) :=
  read_3 (V m c main_v7) t r e

/-- Entry (r, e) of window 4's block at point t is entry (2000·t + r, e) of its array. -/
theorem block_4 (c : Dev nD) (t : Fin cfg0.N) (r : Fin 2000) (e : Fin 3) :
    (iblk m c 4 t : Vec Ideal S2000x3 .f32) (ix2 r e) = (V m c main_v19 : S100000x3.Idx → EReal) (ix2 (node t r) e) :=
  read_4 (V m c main_v19) t r e

/-- Window 5's block is its whole array. -/
theorem whole_5 (c : Dev nD) (t : Fin cfg0.N) : (iblk m c 5 t : Vec Ideal S128x128 .f32) = (V m c main_arg6 : S128x128.Idx → EReal) :=
  read_5 (V m c main_arg6) t

/-- Window 6's block is its whole array. -/
theorem whole_6 (c : Dev nD) (t : Fin cfg0.N) : (iblk m c 6 t : Vec Ideal S1x128 .f32) = (V m c main_v20 : S1x128.Idx → EReal) :=
  read_6 (V m c main_v20) t

/-- Window 7's block is its whole array. -/
theorem whole_7 (c : Dev nD) (t : Fin cfg0.N) : (iblk m c 7 t : Vec Ideal S128x1 .f32) = (V m c main_arg8 : S128x1.Idx → EReal) :=
  read_7 (V m c main_arg8) t

/-- Window 8's block is its whole array. -/
theorem whole_8 (c : Dev nD) (t : Fin cfg0.N) : (iblk m c 8 t : Vec Ideal S1x1 .f32) = (V m c main_v21 : S1x1.Idx → EReal) :=
  read_8 (V m c main_v21) t

/-- Window 9's block is its whole array. -/
theorem whole_9 (c : Dev nD) (t : Fin cfg0.N) : (iblk m c 9 t : Vec Ideal S128x128 .f32) = (V m c main_arg10 : S128x128.Idx → EReal) :=
  read_9 (V m c main_arg10) t

/-- Window 10's block is its whole array. -/
theorem whole_10 (c : Dev nD) (t : Fin cfg0.N) : (iblk m c 10 t : Vec Ideal S1x128 .f32) = (V m c main_v22 : S1x128.Idx → EReal) :=
  read_10 (V m c main_v22) t

/-- Window 11's block is its whole array. -/
theorem whole_11 (c : Dev nD) (t : Fin cfg0.N) : (iblk m c 11 t : Vec Ideal S128x1 .f32) = (V m c main_arg12 : S128x1.Idx → EReal) :=
  read_11 (V m c main_arg12) t

/-- Window 12's block is its whole array. -/
theorem whole_12 (c : Dev nD) (t : Fin cfg0.N) : (iblk m c 12 t : Vec Ideal S1x1 .f32) = (V m c main_v23 : S1x1.Idx → EReal) :=
  read_12 (V m c main_v23) t

/-- Window 13's block is its whole array. -/
theorem whole_13 (c : Dev nD) (t : Fin cfg0.N) : (iblk m c 13 t : Vec Ideal S128x128 .f32) = (V m c main_arg14 : S128x128.Idx → EReal) :=
  read_13 (V m c main_arg14) t

/-- Window 14's block is its whole array. -/
theorem whole_14 (c : Dev nD) (t : Fin cfg0.N) : (iblk m c 14 t : Vec Ideal S1x128 .f32) = (V m c main_v24 : S1x128.Idx → EReal) :=
  read_14 (V m c main_v24) t

/-- Window 15's block is its whole array. -/
theorem whole_15 (c : Dev nD) (t : Fin cfg0.N) : (iblk m c 15 t : Vec Ideal S128x3 .f32) = (V m c main_arg16 : S128x3.Idx → EReal) :=
  read_15 (V m c main_arg16) t

/-- Window 16's block is its whole array. -/
theorem whole_16 (c : Dev nD) (t : Fin cfg0.N) : (iblk m c 16 t : Vec Ideal S1x3 .f32) = (V m c main_v25 : S1x3.Idx → EReal) :=
  read_16 (V m c main_v25) t

/-- Window 17's block is its whole array. -/
theorem whole_17 (c : Dev nD) (t : Fin cfg0.N) : (iblk m c 17 t : Vec Ideal S128x128 .f32) = (V m c main_arg18 : S128x128.Idx → EReal) :=
  read_17 (V m c main_arg18) t

/-- Window 18's block is its whole array. -/
theorem whole_18 (c : Dev nD) (t : Fin cfg0.N) : (iblk m c 18 t : Vec Ideal S1x128 .f32) = (V m c main_v26 : S1x128.Idx → EReal) :=
  read_18 (V m c main_v26) t

/-- Window 19's block is its whole array. -/
theorem whole_19 (c : Dev nD) (t : Fin cfg0.N) : (iblk m c 19 t : Vec Ideal S128x1 .f32) = (V m c main_arg20 : S128x1.Idx → EReal) :=
  read_19 (V m c main_arg20) t

/-- Window 20's block is its whole array. -/
theorem whole_20 (c : Dev nD) (t : Fin cfg0.N) : (iblk m c 20 t : Vec Ideal S1x1 .f32) = (V m c main_v27 : S1x1.Idx → EReal) :=
  read_20 (V m c main_v27) t

/-! ## The output blocks: which indices they hold -/

/-- An index of the result array is in point t's block iff each coordinate is in the block's range on its axis. -/
theorem mem_21 (t : Fin cfg0.N) (i : S100000x3.Idx) :
    i ∈ ((cfg0.win 21).blk t).view.set ↔ ∀ a : Fin 2, win0_21.index t a * S2000x3.size a ≤ (i a).val ∧ (i a).val < win0_21.index t a * S2000x3.size a + S2000x3.size a := by
  show i ∈ ((View.whole main_v28_0).slice (win0_21.rect t)).set ↔ _
  rw [View.set_slice_whole, Rect.mem_set_unit]
  exact Iff.rfl

/-- Every index of the result array is in the block of the point that works on its row: point ⌊row / 2000⌋. -/
theorem cover_21 (i : S100000x3.Idx) : ∃ t : Fin cfg0.N, (cfg0.win 21).flush t = true ∧ i ∈ ((cfg0.win 21).blk t).view.set := by
  have hi0 : (i 0).val < 100000 := (i 0).isLt
  have hi1 : (i 1).val < 3 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1⟩ := at_21 t
  refine ⟨t, flush0_21 t, ?_⟩
  rw [mem_21]
  intro a
  match a with
  | ⟨0, _⟩ => show win0_21.index t (0 : Fin 2) * 2000 ≤ (i 0).val ∧ (i 0).val < win0_21.index t (0 : Fin 2) * 2000 + 2000; rw [e0, ht]; omega
  | ⟨1, _⟩ => show win0_21.index t (1 : Fin 2) * 3 ≤ (i 1).val ∧ (i 1).val < win0_21.index t (1 : Fin 2) * 3 + 3; rw [e1]; omega

/-- An index of the result array is in point t's block iff each coordinate is in the block's range on its axis. -/
theorem mem_22 (t : Fin cfg0.N) (i : S100000x3.Idx) :
    i ∈ ((cfg0.win 22).blk t).view.set ↔ ∀ a : Fin 2, win0_22.index t a * S2000x3.size a ≤ (i a).val ∧ (i a).val < win0_22.index t a * S2000x3.size a + S2000x3.size a := by
  show i ∈ ((View.whole main_v28_1).slice (win0_22.rect t)).set ↔ _
  rw [View.set_slice_whole, Rect.mem_set_unit]
  exact Iff.rfl

/-- Every index of the result array is in the block of the point that works on its row: point ⌊row / 2000⌋. -/
theorem cover_22 (i : S100000x3.Idx) : ∃ t : Fin cfg0.N, (cfg0.win 22).flush t = true ∧ i ∈ ((cfg0.win 22).blk t).view.set := by
  have hi0 : (i 0).val < 100000 := (i 0).isLt
  have hi1 : (i 1).val < 3 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1⟩ := at_22 t
  refine ⟨t, flush0_22 t, ?_⟩
  rw [mem_22]
  intro a
  match a with
  | ⟨0, _⟩ => show win0_22.index t (0 : Fin 2) * 2000 ≤ (i 0).val ∧ (i 0).val < win0_22.index t (0 : Fin 2) * 2000 + 2000; rw [e0, ht]; omega
  | ⟨1, _⟩ => show win0_22.index t (1 : Fin 2) * 3 ≤ (i 1).val ∧ (i 1).val < win0_22.index t (1 : Fin 2) * 3 + 3; rw [e1]; omega

/-- An index of the result array is in point t's block iff each coordinate is in the block's range on its axis. -/
theorem mem_23 (t : Fin cfg0.N) (i : S100000x3.Idx) :
    i ∈ ((cfg0.win 23).blk t).view.set ↔ ∀ a : Fin 2, win0_23.index t a * S2000x3.size a ≤ (i a).val ∧ (i a).val < win0_23.index t a * S2000x3.size a + S2000x3.size a := by
  show i ∈ ((View.whole main_v28_2).slice (win0_23.rect t)).set ↔ _
  rw [View.set_slice_whole, Rect.mem_set_unit]
  exact Iff.rfl

/-- Every index of the result array is in the block of the point that works on its row: point ⌊row / 2000⌋. -/
theorem cover_23 (i : S100000x3.Idx) : ∃ t : Fin cfg0.N, (cfg0.win 23).flush t = true ∧ i ∈ ((cfg0.win 23).blk t).view.set := by
  have hi0 : (i 0).val < 100000 := (i 0).isLt
  have hi1 : (i 1).val < 3 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1⟩ := at_23 t
  refine ⟨t, flush0_23 t, ?_⟩
  rw [mem_23]
  intro a
  match a with
  | ⟨0, _⟩ => show win0_23.index t (0 : Fin 2) * 2000 ≤ (i 0).val ∧ (i 0).val < win0_23.index t (0 : Fin 2) * 2000 + 2000; rw [e0, ht]; omega
  | ⟨1, _⟩ => show win0_23.index t (1 : Fin 2) * 3 ≤ (i 1).val ∧ (i 1).val < win0_23.index t (1 : Fin 2) * 3 + 3; rw [e1]; omega

end Cert.KernelIdeal.Tiles

end
-- ==== Proof.LibTwoLayer.lean ====
/-
  A two-layer perceptron, one row at a time, at the ideal values.

  For a row x of K entries, a first weight matrix W₁ (K × H) with bias b₁ and a second weight matrix W₂ (H × n) with
  bias b₂, the network's value at output column e is
      Σ_j max(Σ_i x_i · W₁(i, j) + b₁(j), 0) · W₂(j, e) + b₂(e).
  Two spellings of it are read at row p of an [A, K] batch. A kernel's: both matrix products into the zero accumulator,
  each bias kept as a one-row matrix and spread over the rows, the rectifier a maximum with the zero splat, the operands
  and the activations re-rounded to a narrower format on the way into a product (which changes nothing at the ideal
  values). The host's: both products a plain dot_general, each bias vector broadcast through a one-row matrix, the
  rectifier a maximum with a broadcast zero constant. Both are the same function of the row, the two matrices and the
  biases' entries.
-/
import Idealize.ShloMosaic.PureOps.Ideal.Laws
import Idealize.ShloMosaic.Lib.ValueIdx
import Idealize.ShloMosaic.Lib.ValueLayout
import Idealize.ShloMosaic.Lib.Pipeline.Value
import proofs.«116183_j82429012345238_2_alg».proof.Proof.LibRowRead

noncomputable section

namespace TwoLayer

open Idealize.ShloMosaic Idealize.ShloMosaic.ValueIdx Finset RowRead

/-- The hidden activations of a row: the rectified affine image. -/
def hidden {K H : ℕ} (x : Fin K → EReal) (W1 : Fin K → Fin H → EReal) (b1 : Fin H → EReal) : Fin H → EReal :=
  fun j => max ((∑ i, x i * W1 i j) + b1 j) 0

/-- The network's output row: the affine image of the hidden activations. -/
def net {K H n : ℕ} (x : Fin K → EReal) (W1 : Fin K → Fin H → EReal) (b1 : Fin H → EReal)
    (W2 : Fin H → Fin n → EReal) (b2 : Fin n → EReal) : Fin n → EReal :=
  fun e => (∑ j, hidden x W1 b1 j * W2 j e) + b2 e

/-- The entries of a one-row matrix. -/
def rowEntries {n : ℕ} (B : (⟨2, ![1, n]⟩ : Shape).Idx → EReal) : Fin n → EReal := fun j => B (ix2 (0 : Fin 1) j)

/-- The entries of a vector. -/
def vecEntries {n : ℕ} (b : (⟨1, ![n]⟩ : Shape).Idx → EReal) : Fin n → EReal := fun j => b (ix1 j)

/-! ## A kernel's spelling -/

/-- Adding a one-row matrix spread over the rows adds its entries to every row. -/
theorem rowOf_add_rowBias {A n : ℕ} (v : FVec Ideal ⟨2, ![A, n]⟩ .f32) (B : (⟨2, ![1, n]⟩ : Shape).Idx → EReal)
    (hc : (⟨2, ![1, n]⟩ : Shape).ShapeCasts ⟨2, ![1, n]⟩) (hb : (⟨2, ![1, n]⟩ : Shape).Broadcasts ⟨2, ![A, n]⟩) (p : Fin A) :
    rowOf (addf v (broadcastTo ⟨2, ![A, n]⟩ (shapeCast ⟨2, ![1, n]⟩ B hc) hb : FVec Ideal ⟨2, ![A, n]⟩ .f32)) p
      = fun j => rowOf v p j + rowEntries B j := by
  funext j
  show v (ix2 p j) + broadcastTo ⟨2, ![A, n]⟩ (shapeCast ⟨2, ![1, n]⟩ B hc) hb (ix2 p j) = v (ix2 p j) + B (ix2 (0 : Fin 1) j)
  rw [broadcastTo_1b_ab_apply, shapeCast_self]

/-- The hidden layer as a kernel prints it: the product into the zero accumulator, the one-row bias spread over the
    rows, the maximum with the zero splat. -/
theorem rowOf_hidden_kernel {A K H : ℕ} {φx φw : FTy} (D : DotDims ⟨2, ![A, K]⟩ ⟨2, ![K, H]⟩ ⟨2, ![A, H]⟩)
    (hD : D = DotDims.plain A K H) (prec : Option ContractPrecision)
    (x : FVec Ideal ⟨2, ![A, K]⟩ φx) (W1 : FVec Ideal ⟨2, ![K, H]⟩ φw) (B1 : (⟨2, ![1, H]⟩ : Shape).Idx → EReal)
    (hc : (⟨2, ![1, H]⟩ : Shape).ShapeCasts ⟨2, ![1, H]⟩) (hb : (⟨2, ![1, H]⟩ : Shape).Broadcasts ⟨2, ![A, H]⟩)
    (z : Ideal .f32) (hz : z = (0 : EReal)) (p : Fin A) :
    rowOf (maximumf (addf (FloatOps.matmul D prec x W1 (constant ⟨2, ![A, H]⟩ .f32 0x00000000#32))
        (broadcastTo ⟨2, ![A, H]⟩ (shapeCast ⟨2, ![1, H]⟩ B1 hc) hb : FVec Ideal ⟨2, ![A, H]⟩ .f32)) (broadcast ⟨2, ![A, H]⟩ z)) p
      = hidden (rowOf x p) (mat W1) (rowEntries B1) := by
  rw [rowOf_max_splat _ z hz]
  funext j
  refine congrArg (max · 0) ?_
  refine (congrFun (rowOf_add_rowBias _ B1 hc hb p) j).trans ?_
  refine congrArg (· + rowEntries B1 j) ?_
  exact congrFun (rowOf_matmul D hD prec x W1 p) j

/-- The output layer as a kernel prints it, from activations whose rows are known: the product into the zero
    accumulator, then the one-row bias spread over the rows. -/
theorem rowOf_output_kernel {A H n : ℕ} {φh φw : FTy} (D : DotDims ⟨2, ![A, H]⟩ ⟨2, ![H, n]⟩ ⟨2, ![A, n]⟩)
    (hD : D = DotDims.plain A H n) (prec : Option ContractPrecision)
    (h : FVec Ideal ⟨2, ![A, H]⟩ φh) (W2 : FVec Ideal ⟨2, ![H, n]⟩ φw) (B2 : (⟨2, ![1, n]⟩ : Shape).Idx → EReal)
    (hc : (⟨2, ![1, n]⟩ : Shape).ShapeCasts ⟨2, ![1, n]⟩) (hb : (⟨2, ![1, n]⟩ : Shape).Broadcasts ⟨2, ![A, n]⟩) (p : Fin A) :
    rowOf (addf (FloatOps.matmul D prec h W2 (constant ⟨2, ![A, n]⟩ .f32 0x00000000#32))
        (broadcastTo ⟨2, ![A, n]⟩ (shapeCast ⟨2, ![1, n]⟩ B2 hc) hb : FVec Ideal ⟨2, ![A, n]⟩ .f32)) p
      = fun e => (∑ j, rowOf h p j * mat W2 j e) + rowEntries B2 e := by
  refine (rowOf_add_rowBias _ B2 hc hb p).trans ?_
  funext e
  exact congrArg (· + rowEntries B2 e) (congrFun (rowOf_matmul D hD prec h W2 p) e)

/-! ## The host's spelling -/

/-- A bias vector broadcast to a one-row matrix and that to every row reads, at (p, j), the vector's entry j. -/
theorem bias_broadcast_apply {A n : ℕ} (b : (⟨1, ![n]⟩ : Shape).Idx → EReal)
    (h1 : (⟨1, ![n]⟩ : Shape).BroadcastsInDim ⟨2, ![1, n]⟩ (![1] : Fin 1 → Fin 2))
    (h2 : (⟨2, ![1, n]⟩ : Shape).BroadcastsInDim ⟨2, ![A, n]⟩ (![0, 1] : Fin 2 → Fin 2)) (p : Fin A) (j : Fin n) :
    broadcastInDim ⟨2, ![A, n]⟩ ![0, 1] h2 (broadcastInDim ⟨2, ![1, n]⟩ ![1] h1 b) (ix2 p j) = b (ix1 j) := by
  refine (broadcastInDim_apply ![0, 1] h2 _ (ix2 p j) (ix2 (0 : Fin 1) j) fun a => ?_).trans ?_
  · match a with
    | ⟨0, _⟩ => rfl
    | ⟨1, _⟩ =>
      show j.val = if n = 1 then 0 else j.val
      split
      · have := j.isLt; omega
      · rfl
  · refine broadcastInDim_apply ![1] h1 b (ix2 (0 : Fin 1) j) (ix1 j) fun a => ?_
    match a with
    | ⟨0, _⟩ =>
      show j.val = if n = 1 then 0 else j.val
      split
      · have := j.isLt; omega
      · rfl

/-- Adding a bias vector broadcast over the rows adds its entries to every row. -/
theorem rowOf_add_vecBias {A n : ℕ} (v : FVec Ideal ⟨2, ![A, n]⟩ .f32) (b : (⟨1, ![n]⟩ : Shape).Idx → EReal)
    (h1 : (⟨1, ![n]⟩ : Shape).BroadcastsInDim ⟨2, ![1, n]⟩ (![1] : Fin 1 → Fin 2))
    (h2 : (⟨2, ![1, n]⟩ : Shape).BroadcastsInDim ⟨2, ![A, n]⟩ (![0, 1] : Fin 2 → Fin 2)) (p : Fin A) :
    rowOf (addf v (broadcastInDim ⟨2, ![A, n]⟩ ![0, 1] h2 (broadcastInDim ⟨2, ![1, n]⟩ ![1] h1 b) : FVec Ideal ⟨2, ![A, n]⟩ .f32)) p
      = fun j => rowOf v p j + vecEntries b j := by
  funext j
  show v (ix2 p j) + broadcastInDim ⟨2, ![A, n]⟩ ![0, 1] h2 (broadcastInDim ⟨2, ![1, n]⟩ ![1] h1 b) (ix2 p j) = v (ix2 p j) + b (ix1 j)
  rw [bias_broadcast_apply]

/-- A column [a, 1] broadcast by the host over b columns reads, at (p, c), the column's entry of row p. -/
theorem column_broadcast_apply {a b : ℕ} (v : (⟨2, ![a, 1]⟩ : Shape).Idx → EReal)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The whole network as the host prints it. -/
theorem rowOf_net_host {A K H n : ℕ} (D1 : DotDims ⟨2, ![A, K]⟩ ⟨2, ![K, H]⟩ ⟨2, ![A, H]⟩) (hD1 : D1 = DotDims.plain A K H)
    (D2 : DotDims ⟨2, ![A, H]⟩ ⟨2, ![H, n]⟩ ⟨2, ![A, n]⟩) (hD2 : D2 = DotDims.plain A H n)
    (prec1 prec2 : Option ContractPrecision) (sched1 sched2 : HostSchedule)
    (x : FVec Ideal ⟨2, ![A, K]⟩ .f32) (W1 : FVec Ideal ⟨2, ![K, H]⟩ .f32) (b1 : FVec Ideal ⟨1, ![H]⟩ .f32)
    (W2 : FVec Ideal ⟨2, ![H, n]⟩ .f32) (b2 : FVec Ideal ⟨1, ![n]⟩ .f32)
    (h1 : (⟨1, ![H]⟩ : Shape).BroadcastsInDim ⟨2, ![1, H]⟩ (![1] : Fin 1 → Fin 2))
    (h2 : (⟨2, ![1, H]⟩ : Shape).BroadcastsInDim ⟨2, ![A, H]⟩ (![0, 1] : Fin 2 → Fin 2))
    (hz : (⟨0, ![]⟩ : Shape).BroadcastsInDim ⟨2, ![A, H]⟩ (![] : Fin 0 → Fin 2))
    (h3 : (⟨1, ![n]⟩ : Shape).BroadcastsInDim ⟨2, ![1, n]⟩ (![1] : Fin 1 → Fin 2))
    (h4 : (⟨2, ![1, n]⟩ : Shape).BroadcastsInDim ⟨2, ![A, n]⟩ (![0, 1] : Fin 2 → Fin 2)) (p : Fin A) :
    rowOf (addf (FloatOps.dotGeneral D2 prec2 sched2
        (maximumf (addf (FloatOps.dotGeneral D1 prec1 sched1 x W1)
            (broadcastInDim ⟨2, ![A, H]⟩ ![0, 1] h2 (broadcastInDim ⟨2, ![1, H]⟩ ![1] h1 b1) : FVec Ideal ⟨2, ![A, H]⟩ .f32))
          (broadcastInDim ⟨2, ![A, H]⟩ ![] hz (constant (F := Ideal) ⟨0, ![]⟩ .f32 0x00000000#32))) W2)
        (broadcastInDim ⟨2, ![A, n]⟩ ![0, 1] h4 (broadcastInDim ⟨2, ![1, n]⟩ ![1] h3 b2) : FVec Ideal ⟨2, ![A, n]⟩ .f32)) p
      = net (rowOf x p) (mat W1) (vecEntries b1) (mat W2) (vecEntries b2) := by
  refine (rowOf_add_vecBias _ b2 h3 h4 p).trans ?_
  funext e
  refine congrArg (· + vecEntries b2 e) ?_
  refine (congrFun (rowOf_dotGeneral D2 hD2 prec2 sched2 _ W2 p) e).trans ?_
  refine Finset.sum_congr rfl fun j _ => congrArg (· * mat W2 j e) ?_
  refine (congrFun (rowOf_max_host _ hz p) j).trans ?_
  refine congrArg (max · 0) ?_
  refine (congrFun (rowOf_add_vecBias _ b1 h1 h2 p) j).trans ?_
  exact congrArg (· + vecEntries b1 j) (congrFun (rowOf_dotGeneral D1 hD1 prec1 sched1 x W1 p) j)

end TwoLayer

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.KernelPoint.lean ====
/-
  One grid point of the decoder kernel, over arbitrary blocks.

  The kernel's arithmetic at a point is, for each row r of the point's 2000 nodes, four two-layer perceptrons of the
  row's latent vector: the weights re-rounded on the way into each product and the biases one-row matrices spread over
  the rows — the kernel's spelling of `TwoLayer.net`. The three stored blocks are, at (r, e):
      net_m(r) · F(r, e),   net_i(r) · T(r, e),   (C(r, e) + net_e(r, e)) · net_v(r) + S(r, e)
  with F, T, S, C the point's blocks of the net force, net torque, static correction and current velocity.
-/
import proofs.«116183_j82429012345238_2_alg».proof.Proof.Gen.KernelIdeal.Frame
import proofs.«116183_j82429012345238_2_alg».proof.Proof.LibTwoLayer
import proofs.«116183_j82429012345238_2_alg».proof.Proof.LibKeepdims

noncomputable section

namespace Cert.KernelIdeal.Point

open Cert.KernelIdeal Cert.KernelIdeal.Gen Idealize.ShloMosaic Idealize.ShloMosaic.ValueIdx RowRead TwoLayer

/-- Every load and store of the body starts at the block's origin. -/
theorem origin : (![0, 0] : Fin 2 → Nat) = fun _ => 0 := funext fun a => by fin_cases a <;> rfl

/-- The zero word denotes zero. -/
theorem zero_word : (FloatOps.ofBits (F := Ideal) .f32 0x00000000#32 : Ideal .f32) = (0 : EReal) := Ideal.ofBits_zero_f32

/-- The inverse-mass network of a point's rows. -/
theorem mass_row (v0 : Vec Ideal S2000x128 .f32) (W1 : Vec Ideal S128x128 .f32) (B1 : Vec Ideal S1x128 .f32) (W2 : Vec Ideal S128x1 .f32) (B2 : Vec Ideal S1x1 .f32) (r : Fin 2000) :
    rowOf (k0_pay5 (F := Ideal) v0 W1 B1 W2 B2) r = net (rowOf v0 r) (mat W1) (rowEntries B1) (mat W2) (rowEntries B2) := by
  unfold k0_pay5 k0_pay4
  refine (rowOf_output_kernel _ rfl none _ _ B2 _ _ r).trans ?_
  funext e
  show _ = (∑ j, hidden (rowOf v0 r) (mat W1) (rowEntries B1) j * mat W2 j e) + rowEntries B2 e
  refine congrArg (· + rowEntries B2 e) (Finset.sum_congr rfl fun j _ => congrArg (· * mat W2 j e) ?_)
  exact congrFun (rowOf_hidden_kernel _ rfl none _ _ B1 _ _ _ zero_word r) j

/-- The inverse-inertia network's product, before its output bias is added. -/
theorem inertia_row (v0 : Vec Ideal S2000x128 .f32) (W1 : Vec Ideal S128x128 .f32) (B1 : Vec Ideal S1x128 .f32) (W2 : Vec Ideal S128x1 .f32) (r : Fin 2000) :
    rowOf (k0_pay6 (F := Ideal) v0 W1 B1 W2) r = fun e => ∑ j, hidden (rowOf v0 r) (mat W1) (rowEntries B1) j * mat W2 j e := by
  unfold k0_pay6 k0_pay4
  refine (rowOf_matmul _ rfl none _ _ r).trans ?_
  funext e
  refine Finset.sum_congr rfl fun j _ => congrArg (· * mat W2 j e) ?_
  exact congrFun (rowOf_hidden_kernel _ rfl none _ _ B1 _ _ _ zero_word r) j

/-- The external-velocity network of a point's rows, from the re-rounded latent block. -/
theorem offset_row (v1 : FVec Ideal S2000x128 .bf16) (W1 : Vec Ideal S128x128 .f32) (B1 : Vec Ideal S1x128 .f32) (W2 : Vec Ideal S128x3 .f32) (B2 : Vec Ideal S1x3 .f32) (r : Fin 2000) :
    rowOf (k0_pay9 (F := Ideal) v1 W1 B1 W2 B2) r = net (rowOf v1 r) (mat W1) (rowEntries B1) (mat W2) (rowEntries B2) := by
  unfold k0_pay9
  refine (rowOf_output_kernel _ rfl none _ _ B2 _ _ r).trans ?_
  funext e
  show _ = (∑ j, hidden (rowOf v1 r) (mat W1) (rowEntries B1) j * mat W2 j e) + rowEntries B2 e
  refine congrArg (· + rowEntries B2 e) (Finset.sum_congr rfl fun j _ => congrArg (· * mat W2 j e) ?_)
  exact congrFun (rowOf_hidden_kernel _ rfl none _ _ B1 _ _ _ zero_word r) j

/-- The velocity-scale network of a point's rows, from the re-rounded latent block. -/
theorem scale_row (v1 : FVec Ideal S2000x128 .bf16) (W1 : Vec Ideal S128x128 .f32) (B1 : Vec Ideal S1x128 .f32) (W2 : Vec Ideal S128x1 .f32) (B2 : Vec Ideal S1x1 .f32) (r : Fin 2000) :
    rowOf (k0_pay10 (F := Ideal) v1 W1 B1 W2 B2) r = net (rowOf v1 r) (mat W1) (rowEntries B1) (mat W2) (rowEntries B2) := by
  unfold k0_pay10
  refine (rowOf_output_kernel _ rfl none _ _ B2 _ _ r).trans ?_
  funext e
  show _ = (∑ j, hidden (rowOf v1 r) (mat W1) (rowEntries B1) j * mat W2 j e) + rowEntries B2 e
  refine congrArg (· + rowEntries B2 e) (Finset.sum_congr rfl fun j _ => congrArg (· * mat W2 j e) ?_)
  exact congrFun (rowOf_hidden_kernel _ rfl none _ _ B1 _ _ _ zero_word r) j

/-- The first stored block: the inverse mass of row r times the net force's entry. -/
theorem velocity_at (x0 : Vec Ideal S2000x128 .f32) (x1 : Vec Ideal S2000x3 .f32) (x2 : Vec Ideal S2000x3 .f32) (x3 : Vec Ideal S2000x3 .f32) (x4 : Vec Ideal S2000x3 .f32) (x5 : Vec Ideal S128x128 .f32) (x6 : Vec Ideal S1x128 .f32) (x7 : Vec Ideal S128x1 .f32) (x8 : Vec Ideal S1x1 .f32) (x9 : Vec Ideal S128x128 .f32) (x10 : Vec Ideal S1x128 .f32) (x11 : Vec Ideal S128x1 .f32) (x12 : Vec Ideal S1x1 .f32) (x13 : Vec Ideal S128x128 .f32) (x14 : Vec Ideal S1x128 .f32) (x15 : Vec Ideal S128x3 .f32) (x16 : Vec Ideal S1x3 .f32) (x17 : Vec Ideal S128x128 .f32) (x18 : Vec Ideal S1x128 .f32) (x19 : Vec Ideal S128x1 .f32) (x20 : Vec Ideal S1x1 .f32) (r : Fin 2000) (e : Fin 3) :
    out0_21 (F := Ideal) x0 x1 x2 x3 x4 x5 x6 x7 x8 x9 x10 x11 x12 x13 x14 x15 x16 x17 x18 x19 x20 (ix2 r e)
      = net (rowOf x0 r) (mat x5) (rowEntries x6) (mat x7) (rowEntries x8) 0 * x2 (ix2 r e) := by
  unfold out0_21
  rw [View.canon_unit_zero origin]
  simp only [View.ld_unit_zero (S := S2000x128) origin, View.ld_unit_zero (S := S128x128) origin, View.ld_unit_zero (S := S1x128) origin, View.ld_unit_zero (S := S128x1) origin, View.ld_unit_zero (S := S1x1) origin, View.ld_unit_zero (S := S128x3) origin, View.ld_unit_zero (S := S1x3) origin, View.ld_unit_zero (S := S2000x3) origin]
  unfold k0_pay1
  show broadcastTo S2000x3 (k0_pay5 (F := Ideal) x0 x5 x6 x7 x8) broadcasts_S2000x1_S2000x3 (ix2 r e)
      * shapeCast S2000x3 x2 shapeCasts_S2000x3_S2000x3 (ix2 r e) = _
  rw [Cert.LibKeepdims.broadcastTo_a1_ab_apply _ _ r e 0, shapeCast_self x2]
  exact congrArg (· * x2 (ix2 r e)) (congrFun (mass_row x0 x5 x6 x7 x8 r) 0)

/-- The second stored block: the inverse inertia of row r times the net torque's entry. -/
theorem angular_at (x0 : Vec Ideal S2000x128 .f32) (x1 : Vec Ideal S2000x3 .f32) (x2 : Vec Ideal S2000x3 .f32) (x3 : Vec Ideal S2000x3 .f32) (x4 : Vec Ideal S2000x3 .f32) (x5 : Vec Ideal S128x128 .f32) (x6 : Vec Ideal S1x128 .f32) (x7 : Vec Ideal S128x1 .f32) (x8 : Vec Ideal S1x1 .f32) (x9 : Vec Ideal S128x128 .f32) (x10 : Vec Ideal S1x128 .f32) (x11 : Vec Ideal S128x1 .f32) (x12 : Vec Ideal S1x1 .f32) (x13 : Vec Ideal S128x128 .f32) (x14 : Vec Ideal S1x128 .f32) (x15 : Vec Ideal S128x3 .f32) (x16 : Vec Ideal S1x3 .f32) (x17 : Vec Ideal S128x128 .f32) (x18 : Vec Ideal S1x128 .f32) (x19 : Vec Ideal S128x1 .f32) (x20 : Vec Ideal S1x1 .f32) (r : Fin 2000) (e : Fin 3) :
    out0_22 (F := Ideal) x0 x1 x2 x3 x4 x5 x6 x7 x8 x9 x10 x11 x12 x13 x14 x15 x16 x17 x18 x19 x20 (ix2 r e)
      = net (rowOf x0 r) (mat x9) (rowEntries x10) (mat x11) (rowEntries x12) 0 * x3 (ix2 r e) := by
  unfold out0_22
  rw [View.canon_unit_zero origin]
  simp only [View.ld_unit_zero (S := S2000x128) origin, View.ld_unit_zero (S := S128x128) origin, View.ld_unit_zero (S := S1x128) origin, View.ld_unit_zero (S := S128x1) origin, View.ld_unit_zero (S := S1x1) origin, View.ld_unit_zero (S := S128x3) origin, View.ld_unit_zero (S := S1x3) origin, View.ld_unit_zero (S := S2000x3) origin]
  unfold k0_pay2 k0_pay8 k0_pay7
  show broadcastTo S2000x3 (addf (k0_pay6 (F := Ideal) x0 x9 x10 x11)
        (broadcastTo S2000x1 (shapeCast S1x1 x12 shapeCasts_S1x1_S1x1) broadcasts_S1x1_S2000x1)) broadcasts_S2000x1_S2000x3 (ix2 r e)
      * shapeCast S2000x3 x3 shapeCasts_S2000x3_S2000x3 (ix2 r e) = _
  rw [Cert.LibKeepdims.broadcastTo_a1_ab_apply _ _ r e 0, shapeCast_self x3]
  refine congrArg (· * x3 (ix2 r e)) ?_
  refine (congrFun (rowOf_add_rowBias (k0_pay6 (F := Ideal) x0 x9 x10 x11) x12 shapeCasts_S1x1_S1x1 broadcasts_S1x1_S2000x1 r) 0).trans ?_
  exact congrArg (· + rowEntries x12 0) (congrFun (inertia_row x0 x9 x10 x11 r) 0)

/-- The third stored block: the displacement of row r. -/
theorem displacement_at (x0 : Vec Ideal S2000x128 .f32) (x1 : Vec Ideal S2000x3 .f32) (x2 : Vec Ideal S2000x3 .f32) (x3 : Vec Ideal S2000x3 .f32) (x4 : Vec Ideal S2000x3 .f32) (x5 : Vec Ideal S128x128 .f32) (x6 : Vec Ideal S1x128 .f32) (x7 : Vec Ideal S128x1 .f32) (x8 : Vec Ideal S1x1 .f32) (x9 : Vec Ideal S128x128 .f32) (x10 : Vec Ideal S1x128 .f32) (x11 : Vec Ideal S128x1 .f32) (x12 : Vec Ideal S1x1 .f32) (x13 : Vec Ideal S128x128 .f32) (x14 : Vec Ideal S1x128 .f32) (x15 : Vec Ideal S128x3 .f32) (x16 : Vec Ideal S1x3 .f32) (x17 : Vec Ideal S128x128 .f32) (x18 : Vec Ideal S1x128 .f32) (x19 : Vec Ideal S128x1 .f32) (x20 : Vec Ideal S1x1 .f32) (r : Fin 2000) (e : Fin 3) :
    out0_23 (F := Ideal) x0 x1 x2 x3 x4 x5 x6 x7 x8 x9 x10 x11 x12 x13 x14 x15 x16 x17 x18 x19 x20 (ix2 r e)
      = (x1 (ix2 r e) + net (rowOf x0 r) (mat x13) (rowEntries x14) (mat x15) (rowEntries x16) e)
          * net (rowOf x0 r) (mat x17) (rowEntries x18) (mat x19) (rowEntries x20) 0 + x4 (ix2 r e) := by
  unfold out0_23
  rw [View.canon_unit_zero origin]
  simp only [View.ld_unit_zero (S := S2000x128) origin, View.ld_unit_zero (S := S128x128) origin, View.ld_unit_zero (S := S1x128) origin, View.ld_unit_zero (S := S128x1) origin, View.ld_unit_zero (S := S1x1) origin, View.ld_unit_zero (S := S128x3) origin, View.ld_unit_zero (S := S1x3) origin, View.ld_unit_zero (S := S2000x3) origin]
  unfold k0_pay3 k0_pay4
  show (x1 (ix2 r e) + k0_pay9 (F := Ideal) (truncf .bf16 x0 bitsLt_bf16_f32) x13 x14 x15 x16 (ix2 r e))
        * broadcastTo S2000x3 (k0_pay10 (F := Ideal) (truncf .bf16 x0 bitsLt_bf16_f32) x17 x18 x19 x20) broadcasts_S2000x1_S2000x3 (ix2 r e)
      + shapeCast S2000x3 x4 shapeCasts_S2000x3_S2000x3 (ix2 r e) = _
  rw [Cert.LibKeepdims.broadcastTo_a1_ab_apply _ _ r e 0, shapeCast_self x4]
  refine congrArg (· + x4 (ix2 r e)) ?_
  exact congrArg₂ (· * ·)
    (congrArg (x1 (ix2 r e) + ·) (congrFun (offset_row (truncf .bf16 x0 bitsLt_bf16_f32) x13 x14 x15 x16 r) e))
    (congrFun (scale_row (truncf .bf16 x0 bitsLt_bf16_f32) x17 x18 x19 x20 r) 0)

end Cert.KernelIdeal.Point

end
-- ==== Proof.DecoderSpec.lean ====
/-
  What the node decoder computes, as functions of whole arrays, index by index.

  For node p, with latent row x = X(p, ·), each of the four small networks is a two-layer perceptron of x (`TwoLayer.net`):
  a gain with one output (the inverse mass, the inverse inertia, the velocity scale) or an offset with three (the
  external velocity change). The three results, at node p and component c, are
      gain(p) · Y(p, c)                                   (a gain times a per-node vector Y: net force, net torque)
      (C(p, c) + offset(p, c)) · scale(p) + S(p, c)      (current velocity C, static correction S).
  The per-node vectors Y and S are whatever the edge sums left; they enter only as arrays. The biases enter as their
  entries, so that a bias kept as a vector and one kept as a one-row matrix give the same function.
-/
import proofs.«116183_j82429012345238_2_alg».proof.Proof.LibTwoLayer

noncomputable section

namespace Cert.Decoder

open Idealize.ShloMosaic Idealize.ShloMosaic.ValueIdx RowRead TwoLayer

/-- A network's output row for node `p`: the two-layer perceptron of that node's latent row. -/
def nodeNet {n : ℕ} (X : (⟨2, ![100000, 128]⟩ : Shape).Idx → EReal) (W1 : (⟨2, ![128, 128]⟩ : Shape).Idx → EReal)
    (b1 : Fin 128 → EReal) (W2 : (⟨2, ![128, n]⟩ : Shape).Idx → EReal) (b2 : Fin n → EReal) (p : Fin 100000) : Fin n → EReal :=
  net (rowOf X p) (mat W1) b1 (mat W2) b2

/-- A per-node gain times a per-node vector: `gain(p) · Y(p, c)`. -/
def scaled (X : (⟨2, ![100000, 128]⟩ : Shape).Idx → EReal) (Y : (⟨2, ![100000, 3]⟩ : Shape).Idx → EReal)
    (W1 : (⟨2, ![128, 128]⟩ : Shape).Idx → EReal) (b1 : Fin 128 → EReal)
    (W2 : (⟨2, ![128, 1]⟩ : Shape).Idx → EReal) (b2 : Fin 1 → EReal) : (⟨2, ![100000, 3]⟩ : Shape).Idx → EReal :=
  fun i => nodeNet X W1 b1 W2 b2 (i 0) 0 * Y i

/-- The displacement: `(C(p, c) + offset(p, c)) · scale(p) + S(p, c)`. -/
def displaced (X : (⟨2, ![100000, 128]⟩ : Shape).Idx → EReal) (C S : (⟨2, ![100000, 3]⟩ : Shape).Idx → EReal)
    (W1e : (⟨2, ![128, 128]⟩ : Shape).Idx → EReal) (b1e : Fin 128 → EReal)
    (W2e : (⟨2, ![128, 3]⟩ : Shape).Idx → EReal) (b2e : Fin 3 → EReal)
    (W1v : (⟨2, ![128, 128]⟩ : Shape).Idx → EReal) (b1v : Fin 128 → EReal)
    (W2v : (⟨2, ![128, 1]⟩ : Shape).Idx → EReal) (b2v : Fin 1 → EReal) : (⟨2, ![100000, 3]⟩ : Shape).Idx → EReal :=
  fun i => (C i + nodeNet X W1e b1e W2e b2e (i 0) (i 1)) * nodeNet X W1v b1v W2v b2v (i 0) 0 + S i

theorem scaled_apply (X : (⟨2, ![100000, 128]⟩ : Shape).Idx → EReal) (Y : (⟨2, ![100000, 3]⟩ : Shape).Idx → EReal)
    (W1 : (⟨2, ![128, 128]⟩ : Shape).Idx → EReal) (b1 : Fin 128 → EReal)
    (W2 : (⟨2, ![128, 1]⟩ : Shape).Idx → EReal) (b2 : Fin 1 → EReal) (p : Fin 100000) (c : Fin 3) :
    scaled X Y W1 b1 W2 b2 (ix2 p c) = nodeNet X W1 b1 W2 b2 p 0 * Y (ix2 p c) := rfl

theorem displaced_apply (X : (⟨2, ![100000, 128]⟩ : Shape).Idx → EReal) (C S : (⟨2, ![100000, 3]⟩ : Shape).Idx → EReal)
    (W1e : (⟨2, ![128, 128]⟩ : Shape).Idx → EReal) (b1e : Fin 128 → EReal)
    (W2e : (⟨2, ![128, 3]⟩ : Shape).Idx → EReal) (b2e : Fin 3 → EReal)
    (W1v : (⟨2, ![128, 128]⟩ : Shape).Idx → EReal) (b1v : Fin 128 → EReal)
    (W2v : (⟨2, ![128, 1]⟩ : Shape).Idx → EReal) (b2v : Fin 1 → EReal) (p : Fin 100000) (c : Fin 3) :
    displaced X C S W1e b1e W2e b2e W1v b1v W2v b2v (ix2 p c)
      = (C (ix2 p c) + nodeNet X W1e b1e W2e b2e p c) * nodeNet X W1v b1v W2v b2v p 0 + S (ix2 p c) := rfl

/-- A bias vector recast as a one-row matrix has the same entries. -/
theorem rowEntries_shapeCast {n : ℕ} (b : (⟨1, ![n]⟩ : Shape).Idx → EReal) (h : (⟨1, ![n]⟩ : Shape).ShapeCasts ⟨2, ![1, n]⟩) :
    rowEntries (shapeCast ⟨2, ![1, n]⟩ b h) = vecEntries b :=
  funext fun j => shapeCast_a_1a_apply b h 0 j

end Cert.Decoder

end
-- ==== Proof.KernelBlocks.lean ====
/-
  From the grid's points to the three result arrays.

  What point t writes back to each result array is block t of the decoder's function of the whole arrays the region
  found: the point's arithmetic over its blocks (Proof/KernelPoint.lean), with each block read as rows of its array
  (Proof/KernelTiles.lean). The 50 blocks tile the 100000 rows, so after the run each result array is that function.
-/
import proofs.«116183_j82429012345238_2_alg».proof.Proof.KernelIdealValue
import proofs.«116183_j82429012345238_2_alg».proof.Proof.KernelTiles
import proofs.«116183_j82429012345238_2_alg».proof.Proof.KernelPoint
import proofs.«116183_j82429012345238_2_alg».proof.Proof.DecoderSpec

noncomputable section

namespace Cert.KernelIdeal.Blocks

open Cert.KernelIdeal Cert.KernelIdeal.Gen Idealize.ShloMosaic Idealize.ShloMosaic.TcCoe Idealize.SL.Sem
open Idealize.ShloMosaic.ValueIdx RowRead TwoLayer Cert.Decoder Cert.KernelIdeal.Tiles
open Idealize.ShloMosaic.Pipeline (Dat)

variable (m : (ℓ : Loc nD τ sig) → Buf (Elt Ideal) ℓ) (ρ : Dev nD → PrngReg)

/-! ## What each point writes back, and the arrays after the run -/

/-- Point t writes back block t of the inverse mass times the net force. -/
theorem flushed_velocity (c : Dev nD) (t : Fin cfg0.N) :
    (dats m 0 c).flushed 21 t = ((cfg0.win 21).blk t).view.read (Elt Ideal)
      (scaled (V m c main_arg1) (V m c main_v4) (V m c main_arg6) (rowEntries (V m c main_v20)) (V m c main_arg8) (rowEntries (V m c main_v21))) := by
  rw [ValueP.flushed21]
  funext j
  obtain ⟨r, e, rfl⟩ : ∃ (r : Fin 2000) (e : Fin 3), j = ix2 r e := ⟨j 0, j 1, eq_ix2 j⟩
  refine Eq.trans ?_ (read_21 (scaled (V m c main_arg1) (V m c main_v4) (V m c main_arg6) (rowEntries (V m c main_v20)) (V m c main_arg8) (rowEntries (V m c main_v21))) t r e).symm
  rw [scaled_apply]
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r e) = _
  refine (Point.velocity_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans ?_
  unfold nodeNet
  rw [latent_rows m c t r, whole_5 m c t, whole_6 m c t, whole_7 m c t, whole_8 m c t, block_2 m c t r e]

/-- Point t writes back block t of the inverse inertia times the net torque. -/
theorem flushed_angular (c : Dev nD) (t : Fin cfg0.N) :
    (dats m 0 c).flushed 22 t = ((cfg0.win 22).blk t).view.read (Elt Ideal)
      (scaled (V m c main_arg1) (V m c main_v7) (V m c main_arg10) (rowEntries (V m c main_v22)) (V m c main_arg12) (rowEntries (V m c main_v23))) := by
  rw [ValueP.flushed22]
  funext j
  obtain ⟨r, e, rfl⟩ : ∃ (r : Fin 2000) (e : Fin 3), j = ix2 r e := ⟨j 0, j 1, eq_ix2 j⟩
  refine Eq.trans ?_ (read_22 (scaled (V m c main_arg1) (V m c main_v7) (V m c main_arg10) (rowEntries (V m c main_v22)) (V m c main_arg12) (rowEntries (V m c main_v23))) t r e).symm
  rw [scaled_apply]
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r e) = _
  refine (Point.angular_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans ?_
  unfold nodeNet
  rw [latent_rows m c t r, whole_9 m c t, whole_10 m c t, whole_11 m c t, whole_12 m c t, block_3 m c t r e]

/-- Point t writes back block t of the displacement. -/
theorem flushed_displacement (c : Dev nD) (t : Fin cfg0.N) :
    (dats m 0 c).flushed 23 t = ((cfg0.win 23).blk t).view.read (Elt Ideal)
      (displaced (V m c main_arg1) (V m c main_arg2) (V m c main_v19)
        (V m c main_arg14) (rowEntries (V m c main_v24)) (V m c main_arg16) (rowEntries (V m c main_v25))
        (V m c main_arg18) (rowEntries (V m c main_v26)) (V m c main_arg20) (rowEntries (V m c main_v27))) := by
  rw [ValueP.flushed23]
  funext j
  obtain ⟨r, e, rfl⟩ : ∃ (r : Fin 2000) (e : Fin 3), j = ix2 r e := ⟨j 0, j 1, eq_ix2 j⟩
  refine Eq.trans ?_ (read_23 (displaced (V m c main_arg1) (V m c main_arg2) (V m c main_v19)
        (V m c main_arg14) (rowEntries (V m c main_v24)) (V m c main_arg16) (rowEntries (V m c main_v25))
        (V m c main_arg18) (rowEntries (V m c main_v26)) (V m c main_arg20) (rowEntries (V m c main_v27))) t r e).symm
  rw [displaced_apply]
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r e) = _
  refine (Point.displacement_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans ?_
  unfold nodeNet
  rw [latent_rows m c t r, whole_13 m c t, whole_14 m c t, whole_15 m c t, whole_16 m c t, whole_17 m c t, whole_18 m c t,
    whole_19 m c t, whole_20 m c t, block_1 m c t r e, block_4 m c t r e]

/-- After the run the first result array is the inverse mass times the net force, of the arrays the region found. -/
theorem final_velocity (c : Dev nD) : (dats m 0 c).arrAt 21 cfg0.N
    = (scaled (V m c main_arg1) (V m c main_v4) (V m c main_arg6) (rowEntries (V m c main_v20)) (V m c main_arg8) (rowEntries (V m c main_v21))) :=
  (dats m 0 c).arrAt_eq_of_cover 21 (scaled (V m c main_arg1) (V m c main_v4) (V m c main_arg6) (rowEntries (V m c main_v20)) (V m c main_arg8) (rowEntries (V m c main_v21))) (fun t _ => flushed_velocity m c t) cover_21

/-- After the run the second result array is the inverse inertia times the net torque. -/
theorem final_angular (c : Dev nD) : (dats m 0 c).arrAt 22 cfg0.N
    = (scaled (V m c main_arg1) (V m c main_v7) (V m c main_arg10) (rowEntries (V m c main_v22)) (V m c main_arg12) (rowEntries (V m c main_v23))) :=
  (dats m 0 c).arrAt_eq_of_cover 22 (scaled (V m c main_arg1) (V m c main_v7) (V m c main_arg10) (rowEntries (V m c main_v22)) (V m c main_arg12) (rowEntries (V m c main_v23))) (fun t _ => flushed_angular m c t) cover_22

/-- After the run the third result array is the displacement. -/
theorem final_displacement (c : Dev nD) : (dats m 0 c).arrAt 23 cfg0.N
    = (displaced (V m c main_arg1) (V m c main_arg2) (V m c main_v19)
        (V m c main_arg14) (rowEntries (V m c main_v24)) (V m c main_arg16) (rowEntries (V m c main_v25))
        (V m c main_arg18) (rowEntries (V m c main_v26)) (V m c main_arg20) (rowEntries (V m c main_v27))) :=
  (dats m 0 c).arrAt_eq_of_cover 23 (displaced (V m c main_arg1) (V m c main_arg2) (V m c main_v19)
        (V m c main_arg14) (rowEntries (V m c main_v24)) (V m c main_arg16) (rowEntries (V m c main_v25))
        (V m c main_arg18) (rowEntries (V m c main_v26)) (V m c main_arg20) (rowEntries (V m c main_v27))) (fun t _ => flushed_displacement m c t) cover_23

end Cert.KernelIdeal.Blocks

end
-- ==== Proof.HostArrays.lean ====
/-
  The arrays the region finds: what the host operations before the kernel's launch left in the buffers it reads.

  The three edge sums (net force, net torque, and the static correction: a sum divided by the clamped edge count) are
  the reference's own host terms of the same arguments, so they are named by the reference's stages and never opened.
  The eight biases reach the kernel recast from vectors to one-row matrices.
-/
import proofs.«116183_j82429012345238_2_alg».proof.Proof.Gen.KernelIdeal.Frame
import proofs.«116183_j82429012345238_2_alg».proof.Proof.Gen.ReferenceIdeal.Read

noncomputable section

namespace Cert.KernelIdeal.HostArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The net force: the edge forces summed at their receivers. -/
theorem net_force (c : Dev nD) :
    (V m c main_v4 : S100000x3.Idx → EReal)
      = Cert.ReferenceIdeal.Read.val_main_v22 (F := Ideal) (m ((c : Thread nD τ).loc main_arg0)) (m ((c : Thread nD τ).loc main_arg3)) := by
  dsimp only [Gen.V, Gen.hostOps0]
  after_results_simp
  rfl

/-- The net torque: the edge torques summed at their receivers. -/
theorem net_torque (c : Dev nD) :
    (V m c main_v7 : S100000x3.Idx → EReal)
      = Cert.ReferenceIdeal.Read.val_main_v25 (F := Ideal) (m ((c : Thread nD τ).loc main_arg0)) (m ((c : Thread nD τ).loc main_arg4)) := by
  dsimp only [Gen.V, Gen.hostOps0]
  after_results_simp
  rfl

/-- The static correction: the edge constraints summed at their receivers, over the edge count clamped below by one. -/
theorem static_correction (c : Dev nD) :
    (V m c main_v19 : S100000x3.Idx → EReal)
      = Cert.ReferenceIdeal.Read.val_main_v37 (F := Ideal) (m ((c : Thread nD τ).loc main_arg0)) (m ((c : Thread nD τ).loc main_arg5)) := by
  dsimp only [Gen.V, Gen.hostOps0]
  after_results_simp
  rfl

/-- The eight biases, each a vector recast as a one-row matrix. -/
theorem bias_m1 (c : Dev nD) : (V m c main_v20 : S1x128.Idx → EReal) = shapeCast S1x128 (m ((c : Thread nD τ).loc main_arg7)) shapeCasts_S128_S1x128 := by
  dsimp only [Gen.V, Gen.hostOps0]
  after_results_simp
  rfl
theorem bias_m2 (c : Dev nD) : (V m c main_v21 : S1x1.Idx → EReal) = shapeCast S1x1 (m ((c : Thread nD τ).loc main_arg9)) shapeCasts_S1_S1x1 := by
  dsimp only [Gen.V, Gen.hostOps0]
  after_results_simp
  rfl
theorem bias_i1 (c : Dev nD) : (V m c main_v22 : S1x128.Idx → EReal) = shapeCast S1x128 (m ((c : Thread nD τ).loc main_arg11)) shapeCasts_S128_S1x128 := by
  dsimp only [Gen.V, Gen.hostOps0]
  after_results_simp
  rfl
theorem bias_i2 (c : Dev nD) : (V m c main_v23 : S1x1.Idx → EReal) = shapeCast S1x1 (m ((c : Thread nD τ).loc main_arg13)) shapeCasts_S1_S1x1 := by
  dsimp only [Gen.V, Gen.hostOps0]
  after_results_simp
  rfl
theorem bias_e1 (c : Dev nD) : (V m c main_v24 : S1x128.Idx → EReal) = shapeCast S1x128 (m ((c : Thread nD τ).loc main_arg15)) shapeCasts_S128_S1x128 := by
  dsimp only [Gen.V, Gen.hostOps0]
  after_results_simp
  rfl
theorem bias_e2 (c : Dev nD) : (V m c main_v25 : S1x3.Idx → EReal) = shapeCast S1x3 (m ((c : Thread nD τ).loc main_arg17)) shapeCasts_S3_S1x3 := by
  dsimp only [Gen.V, Gen.hostOps0]
  after_results_simp
  rfl
theorem bias_v1 (c : Dev nD) : (V m c main_v26 : S1x128.Idx → EReal) = shapeCast S1x128 (m ((c : Thread nD τ).loc main_arg19)) shapeCasts_S128_S1x128 := by
  dsimp only [Gen.V, Gen.hostOps0]
  after_results_simp
  rfl
theorem bias_v2 (c : Dev nD) : (V m c main_v27 : S1x1.Idx → EReal) = shapeCast S1x1 (m ((c : Thread nD τ).loc main_arg21)) shapeCasts_S1_S1x1 := by
  dsimp only [Gen.V, Gen.hostOps0]
  after_results_simp
  rfl

end Cert.KernelIdeal.HostArrays

end
-- ==== Proof.KernelResults.lean ====
/-
  The kernel's three result arrays as the decoder's functions of the ARGUMENTS.

  The region finds the node latents, the current velocity and the weight matrices as launched, the three edge sums as
  the host's terms of the edge arguments, and each bias as its vector recast to one row — which has the vector's entries.
-/
import proofs.«116183_j82429012345238_2_alg».proof.Proof.KernelBlocks
import proofs.«116183_j82429012345238_2_alg».proof.Proof.HostArrays

noncomputable section

namespace Cert.KernelIdeal.Results

open Cert.KernelIdeal Cert.KernelIdeal.Gen Idealize.ShloMosaic Idealize.ShloMosaic.TcCoe Idealize.SL.Sem
open Idealize.ShloMosaic.ValueIdx RowRead TwoLayer Cert.Decoder

variable (m : (ℓ : Loc nD τ sig) → Buf (Elt Ideal) ℓ)

/-- The first result: the inverse mass times the net force. -/
theorem velocity (c : Dev nD) : (dats m 0 c).arrAt 21 cfg0.N
    = scaled (m ((c : Thread nD τ).loc main_arg1)) (Cert.ReferenceIdeal.Read.val_main_v22 (F := Ideal) (m ((c : Thread nD τ).loc main_arg0)) (m ((c : Thread nD τ).loc main_arg3))) (m ((c : Thread nD τ).loc main_arg6)) (vecEntries (m ((c : Thread nD τ).loc main_arg7))) (m ((c : Thread nD τ).loc main_arg8)) (vecEntries (m ((c : Thread nD τ).loc main_arg9))) := by
  rw [Blocks.final_velocity, V_main_arg1, V_main_arg6, V_main_arg8, HostArrays.net_force, HostArrays.bias_m1, HostArrays.bias_m2,
    rowEntries_shapeCast, rowEntries_shapeCast]

/-- The second result: the inverse inertia times the net torque. -/
theorem angular (c : Dev nD) : (dats m 0 c).arrAt 22 cfg0.N
    = scaled (m ((c : Thread nD τ).loc main_arg1)) (Cert.ReferenceIdeal.Read.val_main_v25 (F := Ideal) (m ((c : Thread nD τ).loc main_arg0)) (m ((c : Thread nD τ).loc main_arg4))) (m ((c : Thread nD τ).loc main_arg10)) (vecEntries (m ((c : Thread nD τ).loc main_arg11))) (m ((c : Thread nD τ).loc main_arg12)) (vecEntries (m ((c : Thread nD τ).loc main_arg13))) := by
  rw [Blocks.final_angular, V_main_arg1, V_main_arg10, V_main_arg12, HostArrays.net_torque, HostArrays.bias_i1, HostArrays.bias_i2,
    rowEntries_shapeCast, rowEntries_shapeCast]

/-- The third result: the displacement. -/
theorem displacement (c : Dev nD) : (dats m 0 c).arrAt 23 cfg0.N
    = displaced (m ((c : Thread nD τ).loc main_arg1)) (m ((c : Thread nD τ).loc main_arg2)) (Cert.ReferenceIdeal.Read.val_main_v37 (F := Ideal) (m ((c : Thread nD τ).loc main_arg0)) (m ((c : Thread nD τ).loc main_arg5)))
        (m ((c : Thread nD τ).loc main_arg14)) (vecEntries (m ((c : Thread nD τ).loc main_arg15))) (m ((c : Thread nD τ).loc main_arg16)) (vecEntries (m ((c : Thread nD τ).loc main_arg17)))
        (m ((c : Thread nD τ).loc main_arg18)) (vecEntries (m ((c : Thread nD τ).loc main_arg19))) (m ((c : Thread nD τ).loc main_arg20)) (vecEntries (m ((c : Thread nD τ).loc main_arg21))) := by
  rw [Blocks.final_displacement, V_main_arg1, V_main_arg2, V_main_arg14, V_main_arg16, V_main_arg18, V_main_arg20,
    HostArrays.static_correction, HostArrays.bias_e1, HostArrays.bias_e2, HostArrays.bias_v1, HostArrays.bias_v2,
    rowEntries_shapeCast, rowEntries_shapeCast, rowEntries_shapeCast, rowEntries_shapeCast]

end Cert.KernelIdeal.Results

end
-- ==== Proof.ReferenceIsSpec.lean ====
/-
  The reference's three results are the decoder's functions of the argument arrays.

  Each of the reference's four networks is the host's spelling of a two-layer perceptron of a node's latent row; its
  gains are columns broadcast over the three components. The edge sums (and the static correction's quotient by the
  clamped counts) are carried as whole arrays, never opened: they are the same arrays on both sides.
-/
import proofs.«116183_j82429012345238_2_alg».proof.Proof.Gen.ReferenceIdeal.Read
import proofs.«116183_j82429012345238_2_alg».proof.Proof.DecoderSpec

noncomputable section

namespace Cert.ReferenceIdeal.RefValue

open Cert.ReferenceIdeal Cert.ReferenceIdeal.Gen Cert.ReferenceIdeal.Read Idealize.ShloMosaic Idealize.ShloMosaic.ValueIdx RowRead TwoLayer Cert.Decoder

/-- The inverse-mass network, row by row. -/
theorem mass_row (x1 : (⟨S100000x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (p : Fin 100000) :
    rowOf (val_main_v10 (F := Ideal) x1 x6 x7 x8 x9) p = nodeNet x1 x6 (vecEntries x7) x8 (vecEntries x9) p := by
  unfold val_main_v10 val_main_v9 val_main_v8 val_main_v7 val_main_v6 val_main_call0_v0 val_main_call0_cst val_main_v5 val_main_v4 val_main_v3 val_main_v2
  exact rowOf_net_host _ rfl _ rfl none none .single .single x1 x6 x7 x8 x9 _ _ _ _ _ p

/-- The inverse-inertia network, row by row. -/
theorem inertia_row (x1 : (⟨S100000x128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) (p : Fin 100000) :
    rowOf (val_main_v19 (F := Ideal) x1 x10 x11 x12 x13) p = nodeNet x1 x10 (vecEntries x11) x12 (vecEntries x13) p := by
  unfold val_main_v19 val_main_v18 val_main_v17 val_main_v16 val_main_v15 val_main_call1_v0 val_main_call1_cst val_main_v14 val_main_v13 val_main_v12 val_main_v11
  exact rowOf_net_host _ rfl _ rfl none none .single .single x1 x10 x11 x12 x13 _ _ _ _ _ p

/-- The external-velocity network, row by row. -/
theorem offset_row (x1 : (⟨S100000x128, .f32⟩ : BufTy).Contents (Elt Ideal)) (x14 : (⟨S128x128, .f32⟩ : BufTy).Contents (Elt Ideal)) (x15 : (⟨S128, .f32⟩ : BufTy).Contents (Elt Ideal)) (x16 : (⟨S128x3, .f32⟩ : BufTy).Contents (Elt Ideal)) (x17 : (⟨S3, .f32⟩ : BufTy).Contents (Elt Ideal)) (p : Fin 100000) :
    rowOf (val_main_v48 (F := Ideal) x1 x14 x15 x16 x17) p = nodeNet x1 x14 (vecEntries x15) x16 (vecEntries x17) p := by
  unfold val_main_v48 val_main_v47 val_main_v46 val_main_v45 val_main_v44 val_main_call2_v0 val_main_call2_cst val_main_v43 val_main_v42 val_main_v41 val_main_v40
  exact rowOf_net_host _ rfl _ rfl none none .single .single x1 x14 x15 x16 x17 _ _ _ _ _ p

/-- The velocity-scale network, row by row. -/
theorem scale_row (x1 : (⟨S100000x128, .f32⟩ : BufTy).Contents (Elt Ideal)) (x18 : (⟨S128x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal)) (p : Fin 100000) :
    rowOf (val_main_v59 (F := Ideal) x1 x18 x19 x20 x21) p = nodeNet x1 x18 (vecEntries x19) x20 (vecEntries x21) p := by
  unfold val_main_v59 val_main_v58 val_main_v57 val_main_v56 val_main_v55 val_main_call3_v0 val_main_call3_cst val_main_v54 val_main_v53 val_main_v52 val_main_v51
  exact rowOf_net_host _ rfl _ rfl none none .single .single x1 x18 x19 x20 x21 _ _ _ _ _ p

/-- The first result: the inverse mass times the net force. -/
theorem velocity_eq (x0 : (⟨S2x3200000, .i32⟩ : BufTy).Contents (Elt Ideal)) (x1 : (⟨S100000x128, .f32⟩ : BufTy).Contents (Elt Ideal)) (x3 : (⟨S3200000x3, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) :
    val_main_v39 (F := Ideal) x0 x1 x3 x6 x7 x8 x9
      = scaled x1 (val_main_v22 (F := Ideal) x0 x3) x6 (vecEntries x7) x8 (vecEntries x9) := by
  funext i
  obtain ⟨p, c, rfl⟩ : ∃ (p : Fin 100000) (c : Fin 3), i = ix2 p c := ⟨i 0, i 1, eq_ix2 i⟩
  rw [scaled_apply]
  unfold val_main_v39 val_main_v38
  show broadcastInDim S100000x3 ![0, 1] _ (val_main_v10 (F := Ideal) x1 x6 x7 x8 x9) (ix2 p c)
      * val_main_v22 (F := Ideal) x0 x3 (ix2 p c) = _
  rw [column_broadcast_apply]
  exact congrArg (· * val_main_v22 (F := Ideal) x0 x3 (ix2 p c)) (congrFun (mass_row x1 x6 x7 x8 x9 p) 0)

/-- The second result: the inverse inertia times the net torque. -/
theorem angular_eq (x0 : (⟨S2x3200000, .i32⟩ : BufTy).Contents (Elt Ideal)) (x1 : (⟨S100000x128, .f32⟩ : BufTy).Contents (Elt Ideal)) (x4 : (⟨S3200000x3, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) :
    val_main_v50 (F := Ideal) x0 x1 x4 x10 x11 x12 x13
      = scaled x1 (val_main_v25 (F := Ideal) x0 x4) x10 (vecEntries x11) x12 (vecEntries x13) := by
  funext i
  obtain ⟨p, c, rfl⟩ : ∃ (p : Fin 100000) (c : Fin 3), i = ix2 p c := ⟨i 0, i 1, eq_ix2 i⟩
  rw [scaled_apply]
  unfold val_main_v50 val_main_v49
  show broadcastInDim S100000x3 ![0, 1] _ (val_main_v19 (F := Ideal) x1 x10 x11 x12 x13) (ix2 p c)
      * val_main_v25 (F := Ideal) x0 x4 (ix2 p c) = _
  rw [column_broadcast_apply]
  exact congrArg (· * val_main_v25 (F := Ideal) x0 x4 (ix2 p c)) (congrFun (inertia_row x1 x10 x11 x12 x13 p) 0)

/-- The third result: the displacement. -/
theorem displacement_eq (x0 : (⟨S2x3200000, .i32⟩ : BufTy).Contents (Elt Ideal)) (x1 : (⟨S100000x128, .f32⟩ : BufTy).Contents (Elt Ideal)) (x2 : (⟨S100000x3, .f32⟩ : BufTy).Contents (Elt Ideal)) (x5 : (⟨S3200000x3, .f32⟩ : BufTy).Contents (Elt Ideal))
    (x14 : (⟨S128x128, .f32⟩ : BufTy).Contents (Elt Ideal)) (x15 : (⟨S128, .f32⟩ : BufTy).Contents (Elt Ideal)) (x16 : (⟨S128x3, .f32⟩ : BufTy).Contents (Elt Ideal)) (x17 : (⟨S3, .f32⟩ : BufTy).Contents (Elt Ideal))
    (x18 : (⟨S128x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal)) :
    val_main_v63 (F := Ideal) x0 x1 x2 x5 x14 x15 x16 x17 x18 x19 x20 x21
      = displaced x1 x2 (val_main_v37 (F := Ideal) x0 x5) x14 (vecEntries x15) x16 (vecEntries x17) x18 (vecEntries x19) x20 (vecEntries x21) := by
  funext i
  obtain ⟨p, c, rfl⟩ : ∃ (p : Fin 100000) (c : Fin 3), i = ix2 p c := ⟨i 0, i 1, eq_ix2 i⟩
  rw [displaced_apply]
  unfold val_main_v63 val_main_v62 val_main_v61 val_main_v60
  show (x2 (ix2 p c) + val_main_v48 (F := Ideal) x1 x14 x15 x16 x17 (ix2 p c))
        * broadcastInDim S100000x3 ![0, 1] _ (val_main_v59 (F := Ideal) x1 x18 x19 x20 x21) (ix2 p c)
      + val_main_v37 (F := Ideal) x0 x5 (ix2 p c) = _
  rw [column_broadcast_apply]
  refine congrArg (· + val_main_v37 (F := Ideal) x0 x5 (ix2 p c)) ?_
  exact congrArg₂ (· * ·) (congrArg (x2 (ix2 p c) + ·) (congrFun (offset_row x1 x14 x15 x16 x17 p) c))
    (congrFun (scale_row x1 x18 x19 x20 x21 p) 0)

end Cert.ReferenceIdeal.RefValue

end
-- ==== Proof.lean ====
/-
  A node decoder of a message-passing step: from each node's latent vector four small two-layer perceptrons give an
  inverse mass, an inverse inertia, an external velocity change and a velocity scale, which are combined with the
  forces, torques and constraints summed over each node's incoming edges:
      Δv = inverse mass · net force,   Δω = inverse inertia · net torque,
      displacement = (current velocity + external change) · scale + mean constraint.
  The kernel sums the edges on the host and decodes 2000 nodes per grid point with the weights re-rounded on the way into
  each matrix product; the reference computes everything on whole arrays. At the ideal values a re-rounding is the
  identity and a matrix product is the plain sum over the contracted axis, so both programs compute the same functions
  of the arguments (`Cert.Decoder.scaled`, `Cert.Decoder.displaced`), with the edge sums the same host terms on both
  sides, never opened. No law of arithmetic beyond that is used, so the arguments' finiteness is not needed.
  The kernel's side: one grid point over arbitrary blocks (Proof/KernelPoint.lean), the blocks as rows of their arrays
  and the tiling of the result arrays (Proof/KernelBlocks.lean), what the host left for the kernel (Proof/HostArrays.lean,
  Proof/KernelResults.lean). The reference's side: Proof/ReferenceIsSpec.lean. The ideal pass rewrote nothing.
-/
import proofs.«116183_j82429012345238_2_alg».proof.Defs
import proofs.«116183_j82429012345238_2_alg».proof.Proof.Gen.Kernel
import proofs.«116183_j82429012345238_2_alg».proof.Proof.Gen.Kernel.Skeleton
import proofs.«116183_j82429012345238_2_alg».proof.Proof.Gen.Kernel.Launch
import proofs.«116183_j82429012345238_2_alg».proof.Proof.Gen.Kernel.Points
import proofs.«116183_j82429012345238_2_alg».proof.Proof.Gen.Kernel.Frame
import proofs.«116183_j82429012345238_2_alg».proof.Proof.Gen.KernelIdeal
import proofs.«116183_j82429012345238_2_alg».proof.Proof.Gen.KernelIdeal.Skeleton
import proofs.«116183_j82429012345238_2_alg».proof.Proof.Gen.KernelIdeal.Launch
import proofs.«116183_j82429012345238_2_alg».proof.Proof.Gen.KernelIdeal.Points
import proofs.«116183_j82429012345238_2_alg».proof.Proof.Gen.KernelIdeal.Frame
import proofs.«116183_j82429012345238_2_alg».proof.Proof.Gen.ReferenceIdeal
import proofs.«116183_j82429012345238_2_alg».proof.Proof.Gen.Pre_finite_inputs
import proofs.«116183_j82429012345238_2_alg».proof.Proof.Gen.ReferenceIdeal.Run
import proofs.«116183_j82429012345238_2_alg».proof.Proof.Gen.ReferenceIdeal.Read
import proofs.«116183_j82429012345238_2_alg».proof.Proof.KernelResults
import proofs.«116183_j82429012345238_2_alg».proof.Proof.ReferenceIsSpec
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference is a straight line of host operations: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- From memories that agree on the arguments both programs end with the three results at the decoder's functions of
    those arguments: the kernel's arrays after its 50 points, the reference's composed terms. -/
theorem algebraic : Cert.algebraic_KernelIdeal_ReferenceIdeal := by
  intro m ρ m' ρ' _ hagree
  refine ⟨fun c => Cert.Decoder.scaled (m ((c.tc : Thread Cert.KernelIdeal.nD Cert.KernelIdeal.τ).loc Cert.KernelIdeal.main_arg1)) (Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg6)) (TwoLayer.vecEntries (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (TwoLayer.vecEntries (m ((c.tc : Thread Cert.KernelIdeal.nD Cert.KernelIdeal.τ).loc Cert.KernelIdeal.main_arg9))),
    fun c => Cert.Decoder.scaled (m ((c.tc : Thread Cert.KernelIdeal.nD Cert.KernelIdeal.τ).loc Cert.KernelIdeal.main_arg1)) (Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (m ((c.tc : Thread Cert.KernelIdeal.nD Cert.KernelIdeal.τ).loc Cert.KernelIdeal.main_arg10)) (TwoLayer.vecEntries (m ((c.tc : Thread Cert.KernelIdeal.nD Cert.KernelIdeal.τ).loc Cert.KernelIdeal.main_arg11))) (m ((c.tc : Thread Cert.KernelIdeal.nD Cert.KernelIdeal.τ).loc Cert.KernelIdeal.main_arg12)) (TwoLayer.vecEntries (m ((c.tc : Thread Cert.KernelIdeal.nD Cert.KernelIdeal.τ).loc Cert.KernelIdeal.main_arg13))),
    fun c => Cert.Decoder.displaced (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg14)) (TwoLayer.vecEntries (m ((c.tc : Thread Cert.KernelIdeal.nD Cert.KernelIdeal.τ).loc Cert.KernelIdeal.main_arg15))) (m ((c.tc : Thread Cert.KernelIdeal.nD Cert.KernelIdeal.τ).loc Cert.KernelIdeal.main_arg16)) (TwoLayer.vecEntries (m ((c.tc : Thread Cert.KernelIdeal.nD Cert.KernelIdeal.τ).loc Cert.KernelIdeal.main_arg17)))
      (m ((c.tc : Thread Cert.KernelIdeal.nD Cert.KernelIdeal.τ).loc Cert.KernelIdeal.main_arg18)) (TwoLayer.vecEntries (m ((c.tc : Thread Cert.KernelIdeal.nD Cert.KernelIdeal.τ).loc Cert.KernelIdeal.main_arg19))) (m ((c.tc : Thread Cert.KernelIdeal.nD Cert.KernelIdeal.τ).loc Cert.KernelIdeal.main_arg20)) (TwoLayer.vecEntries (m ((c.tc : Thread Cert.KernelIdeal.nD Cert.KernelIdeal.τ).loc Cert.KernelIdeal.main_arg21))), ?_, ?_⟩
  · exact (θ_run Cert.KernelIdeal.defs _ _).mono (fun r h c =>
      ⟨(h c).1.trans (Cert.KernelIdeal.Results.velocity m c), (h c).2.1.trans (Cert.KernelIdeal.Results.angular m c),
        (h c).2.2.1.trans (Cert.KernelIdeal.Results.displacement m c), (h c).2.2.2⟩)
      (Cert.KernelIdeal.ValueP.run_blocks (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19, a20, a21⟩ := hagree c
    refine ⟨(h c).1.trans ?_, (h c).2.1.trans ?_, (h c).2.2.1.trans ?_, (h c).2.2.2⟩
    · refine ((Cert.ReferenceIdeal.Read.val_main_v39_eq _ _ _ _ _ _ _).trans (Cert.ReferenceIdeal.RefValue.velocity_eq _ _ _ _ _ _ _)).trans ?_
      simp only [a0, a1, a3, a6, a7, a8, a9]
    · refine ((Cert.ReferenceIdeal.Read.val_main_v50_eq _ _ _ _ _ _ _).trans (Cert.ReferenceIdeal.RefValue.angular_eq _ _ _ _ _ _ _)).trans ?_
      simp only [a0, a1, a4, a10, a11, a12, a13]
    · refine ((Cert.ReferenceIdeal.Read.val_main_v63_eq _ _ _ _ _ _ _ _ _ _ _ _).trans
        (Cert.ReferenceIdeal.RefValue.displacement_eq _ _ _ _ _ _ _ _ _ _ _ _)).trans ?_
      simp only [a0, a1, a2, a5, a14, a15, a16, a17, a18, a19, a20, a21]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
